-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S2048x128 : Shape := ⟨2, ![2048, 128]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_

variable [Facts]

def fn_part1 {F : FTy → Type} [FloatOps F] (main_v13 : IVec S_ 1) (main_v16 : IVec S2048x128 1) : IVec S_ 1 :=
  let main_c_5 : IVec S_ 1 := constantI S_ 1 1#1
  let main_v17 : IVec S_ 1 := (fun x v => Host.reduce IntOp.andi x v reducesTo_S2048x128_S_d0_1 h_S_) main_v16 main_c_5
  let main_v18 : IVec S_ 1 := andi main_v13 main_v17
  main_v18

def fn {F : FTy → Type} [FloatOps F] (main_arg0 : FVec F S8x4096x2048 .f32) (main_arg1 : FVec F S2048x128 .f32) (main_arg2 : FVec F S2048x128 .f32) (main_arg3 : FVec F S2048x128 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S2048x128 .f32 := Host.absf main_arg2
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S2048x128 .f32 := Host.absf main_arg3
  let main_cst_4 : FVec F S_ .f32 := constant S_ .f32 0x7F800000#32
  let main_v15 : FVec F S2048x128 .f32 := broadcastInDim S2048x128 ![] bcast_S_S2048x128 main_cst_4
  let main_v16 : IVec S2048x128 1 := cmpf .olt main_v14 main_v15
  fn_part1 (F := F) main_v13 main_v16
-- ==== Kernel.lean ====
abbrev S8x4096x2048 : Shape := ⟨3, ![8, 4096, 2048]⟩
abbrev S2048x128 : Shape := ⟨2, ![2048, 128]⟩
abbrev S32768x2048 : Shape := ⟨2, ![32768, 2048]⟩
abbrev S32768x128 : Shape := ⟨2, ![32768, 128]⟩
abbrev S1024x2048 : Shape := ⟨2, ![1024, 2048]⟩
abbrev S1024x128 : Shape := ⟨2, ![1024, 128]⟩
abbrev S8x4096x128 : Shape := ⟨3, ![8, 4096, 128]⟩
abbrev S1x4096x128 : Shape := ⟨3, ![1, 4096, 128]⟩
abbrev S1x256x128 : Shape := ⟨3, ![1, 256, 128]⟩
abbrev S4096x128 : Shape := ⟨2, ![4096, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩

abbrev nBuf : Space → Nat
  | .hbm => 12
  | .vmem => 20
  | .smem => 0
  | _ => 0

abbrev bufTy : (tb : Table) → Fin (tcTables nBuf tb) → BufTy
  | .hbm, ⟨0, _⟩ => ⟨S8x4096x2048, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S32768x2048, .f32⟩
  | .hbm, ⟨5, _⟩ => ⟨S32768x128, .bf16⟩
  | .hbm, ⟨6, _⟩ => ⟨S32768x128, .bf16⟩
  | .hbm, ⟨7, _⟩ => ⟨S32768x128, .bf16⟩
  | .hbm, ⟨8, _⟩ => ⟨S8x4096x128, .bf16⟩
  | .hbm, ⟨9, _⟩ => ⟨S8x4096x128, .bf16⟩
  | .hbm, ⟨10, _⟩ => ⟨S8x4096x128, .bf16⟩
  | .hbm, ⟨11, _⟩ => ⟨S8x4096x128, .f32⟩
  | .local _ .vmem, ⟨0, _⟩ => ⟨S1024x2048, .f32⟩
  | .local _ .vmem, ⟨1, _⟩ => ⟨S1024x2048, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1x4096x128, .bf16⟩
  | .local _ .vmem, ⟨12, _⟩ => ⟨S1x4096x128, .bf16⟩
  | .local _ .vmem, ⟨13, _⟩ => ⟨S1x256x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x128, .bf16⟩
  | .local _ .vmem, ⟨17, _⟩ => ⟨S1x4096x128, .f32⟩
  | .local _ .vmem, ⟨18, _⟩ => ⟨S1x4096x128, .f32⟩
  | .local _ .vmem, ⟨19, _⟩ => ⟨S4096x128, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v30 : BitVec 1 := Scalar.cmpi .eq arg1 c15_i32
  let v31 : BitVec 32 := Scalar.extui v30
  let c0_i32_18 : BitVec 32 := 0#32
  let v32 : BitVec 1 := Scalar.cmpi .ne v31 c0_i32_18
  v32

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S8x4096x2048_S32768x2048 : S8x4096x2048.ShapeCasts S32768x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  shapeCasts_S32768x128_S8x4096x128 : S32768x128.ShapeCasts S8x4096x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  reduces_S256x4096_S256 : S256x4096.Reduces [1] S256
  shapeCasts_S256_S256x1 : S256.ShapeCasts S256x1
  broadcasts_S256x1_S256x4096 : S256x1.Broadcasts S256x4096
  shapeCasts_S4096x128_S1x4096x128 : S4096x128.ShapeCasts S1x4096x128
  dot_S1024x2048_S2048x128_S1024x128_1_0_0_1_n_n_wf : DotDims.WF S1024x2048 S2048x128 S1024x128 [1] [0] [0] [1] [] []
  dot_S256x128_S4096x128_S256x4096_1_1_0_0_n_n_wf : DotDims.WF S256x128 S4096x128 S256x4096 [1] [1] [0] [0] [] []
  dot_S256x4096_S256x128_S4096x128_0_0_1_1_n_n_wf : DotDims.WF S256x4096 S256x128 S4096x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .f32 = 32 ∨ (Rect.block (s := S2048x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x128.size a
  hwx0_2 : ∀ i : grid0.Coords, EltTy.bits .f32 = 32 ∨ (Rect.block (s := S2048x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S2048x128.size a
  hwx0_3 : ∀ i : grid0.Coords, EltTy.bits .f32 = 32 ∨ (Rect.block (s := S2048x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S32768x128.size a
  hwx0_4 : ∀ i : grid0.Coords, EltTy.bits .bf16 = 32 ∨ (Rect.block (s := S32768x128) S1024x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S32768x128.size a
  hwx0_5 : ∀ i : grid0.Coords, EltTy.bits .bf16 = 32 ∨ (Rect.block (s := S32768x128) S1024x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S32768x128.size a
  hwx0_6 : ∀ i : grid0.Coords, EltTy.bits .bf16 = 32 ∨ (Rect.block (s := S32768x128) S1024x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x128.size a ≤ S8x4096x128.size a
  hwx1_0 : ∀ i : grid1.Coords, EltTy.bits .bf16 = 32 ∨ (Rect.block (s := S8x4096x128) S1x4096x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x128.size a ≤ S8x4096x128.size a
  hwx1_1 : ∀ i : grid1.Coords, EltTy.bits .bf16 = 32 ∨ (Rect.block (s := S8x4096x128) S1x256x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x128.size a ≤ S8x4096x128.size a
  hwx1_2 : ∀ i : grid1.Coords, EltTy.bits .bf16 = 32 ∨ (Rect.block (s := S8x4096x128) S1x256x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x128.size a ≤ S8x4096x128.size a
  hwx1_3 : ∀ i : grid1.Coords, EltTy.bits .f32 = 32 ∨ (Rect.block (s := S8x4096x128) S1x4096x128.size (cc1_transform_3 i) (hinb1_3 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf
def dot_S256x4096_S256x128_S4096x128_0_0_1_1_n_n : DotDims S256x4096 S256x128 S4096x128 where
  lhsContracting := [0]
  rhsContracting := [0]
  lhsNonContracting := [1]
  rhsNonContracting := [1]
  lhsBatch := []
  rhsBatch := []
  wf := dot_S256x4096_S256x128_S4096x128_0_0_1_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1024x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2) S1x4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x4096x2048 : Shape := ⟨3, ![8, 4096, 2048]⟩
abbrev S2048x128 : Shape := ⟨2, ![2048, 128]⟩
abbrev S8x4096x128 : Shape := ⟨3, ![8, 4096, 128]⟩
abbrev S8x4096x4096 : Shape := ⟨3, ![8, 4096, 4096]⟩
abbrev S_ : Shape := ⟨0, ![]⟩
abbrev S8x4096 : Shape := ⟨2, ![8, 4096]⟩
abbrev S8x1x4096 : Shape := ⟨3, ![8, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S8x4096x128, .f32⟩
  | .hbm, ⟨5, _⟩ => ⟨S8x4096x128, .f32⟩
  | .hbm, ⟨6, _⟩ => ⟨S8x4096x128, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S_, .f32⟩
  | .hbm, ⟨12, _⟩ => ⟨S8x4096, .f32⟩
  | .hbm, ⟨13, _⟩ => ⟨S_, .f32⟩
  | .hbm, ⟨14, _⟩ => ⟨S8x4096, .f32⟩
  | .hbm, ⟨15, _⟩ => ⟨S8x4096, .f32⟩
  | .hbm, ⟨16, _⟩ => ⟨S8x1x4096, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S8x1x4096, .f32⟩
  | .hbm, ⟨23, _⟩ => ⟨S8x4096x4096, .f32⟩
  | .hbm, ⟨24, _⟩ => ⟨S8x4096x4096, .f32⟩
  | .hbm, ⟨25, _⟩ => ⟨S8x4096x128, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  reducesTo_S8x4096x4096_S8x4096_d1 : S8x4096x4096.ReducesTo [1] S8x4096
  h_S_ : 0 < S_.numel
  bcast_S_S8x4096 : S_.BroadcastsInDim S8x4096 (![] : Fin 0 → Fin S8x4096.rank)
  bcast_S8x4096_S8x1x4096_0_2 : S8x4096.BroadcastsInDim S8x1x4096 (![0, 2] : Fin 2 → Fin S8x1x4096.rank)
  bcast_S8x1x4096_S8x4096x4096_0_1_2 : S8x1x4096.BroadcastsInDim S8x4096x4096 (![0, 1, 2] : Fin 3 → Fin S8x4096x4096.rank)
  dot_S8x4096x2048_S2048x128_S8x4096x128_2_0_01_1_n_n_wf : DotDims.WF S8x4096x2048 S2048x128 S8x4096x128 [2] [0] [0, 1] [1] [] []
  dot_S8x4096x128_S8x4096x128_S8x4096x4096_2_2_1_1_0_0_wf : DotDims.WF S8x4096x128 S8x4096x128 S8x4096x4096 [2] [2] [1] [1] [0] [0]
  dot_S8x4096x4096_S8x4096x128_S8x4096x128_2_1_1_2_0_0_wf : DotDims.WF S8x4096x4096 S8x4096x128 S8x4096x128 [2] [1] [1] [2] [0] [0]

variable [Facts₀]

def dot_S8x4096x2048_S2048x128_S8x4096x128_2_0_01_1_n_n : DotDims S8x4096x2048 S2048x128 S8x4096x128 where
  lhsContracting := [2]
  rhsContracting := [0]
  lhsNonContracting := [0, 1]
  rhsNonContracting := [1]
  lhsBatch := []
  rhsBatch := []
  wf := dot_S8x4096x2048_S2048x128_S8x4096x128_2_0_01_1_n_n_wf
def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf
def dot_S8x4096x4096_S8x4096x128_S8x4096x128_2_1_1_2_0_0 : DotDims S8x4096x4096 S8x4096x128 S8x4096x128 where
  lhsContracting := [2]
  rhsContracting := [1]
  lhsNonContracting := [1]
  rhsNonContracting := [2]
  lhsBatch := [0]
  rhsBatch := [0]
  wf := dot_S8x4096x4096_S8x4096x128_S8x4096x128_2_1_1_2_0_0_wf

class Facts : Prop extends Facts₀ where

variable [Facts]
-- ==== Proof.KR0.lean ====
/-
  The projection region (the first kernel call), for any float values: what each point's body leaves in the three
  output blocks as a function of the point's input blocks, the body's triple, and the pipeline's proof data.

  At grid point `t` the body reads a block of 1024 input rows and the three whole weight matrices and stores, into
  each of the three output blocks, the rows' product with one weight matrix. Nothing is kept between points.
-/
import proofs.«115408_j3504693313667_1_alg».proof.Proof.Gen.Kernel.Launch
import proofs.«115408_j3504693313667_1_alg».proof.Proof.Gen.Kernel.Skeleton
import proofs.«115408_j3504693313667_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: an unfetched point has
    the block index of the point before it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: an unfetched point has
    the block index of the point before it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: an unfetched point has
    the block index of the point before it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: an unfetched point has
    the block index of the point before it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's whole-buffer rectangles -/

abbrev r0_x : Rect S1024x2048 := Rect.unit (s := S1024x2048) ![0, 0] S1024x2048.size inb_S1024x2048_S1024x2048_0_0
abbrev r0_w : Rect S2048x128 := Rect.unit (s := S2048x128) ![0, 0] S2048x128.size inb_S2048x128_S2048x128_0_0
abbrev r0_o : Rect S1024x128 := Rect.unit (s := S1024x128) ![0, 0] S1024x128.size inb_S1024x128_S1024x128_0_0

/-! ## What the body leaves in each output block: its one store, over the loaded blocks -/

def out0_4 (x0 : Vec F S1024x2048 .f32) (x1 : Vec F S2048x128 .f32) : Vec F S1024x128 .bf16 :=
  View.canon [⟨r0_o, k0_pay2 (View.ld x0 r0_x) (View.ld x1 r0_w)⟩]
def out0_5 (x0 : Vec F S1024x2048 .f32) (x2 : Vec F S2048x128 .f32) : Vec F S1024x128 .bf16 :=
  View.canon [⟨r0_o, k0_pay3 (View.ld x0 r0_x) (View.ld x2 r0_w)⟩]
def out0_6 (x0 : Vec F S1024x2048 .f32) (x3 : Vec F S2048x128 .f32) : Vec F S1024x128 .bf16 :=
  View.canon [⟨r0_o, k0_pay4 (View.ld x0 r0_x) (View.ld x3 r0_w)⟩]

/-- One store of the whole block covers the block. -/
theorem cover0_o (p0 : Vec F S1024x128 .bf16) (y : S1024x128.Idx) :
    ∃ pc ∈ ([⟨r0_o, p0⟩] : List (View.Piece (Elt F) S1024x128 .bf16)), y ∈ pc.1.set :=
  View.cover_of_tiled [⟨r0_o, p0⟩] S1024x128.size (by rfl) y

/-! ## The body's triple -/

set_option maxHeartbeats 4000000 in
/-- On whole staging buffers, the inputs' at contents `x·` and the outputs' at anything, the body runs to the
    continuation holding the inputs' as they were and each output's at its store's value. -/
theorem sound_kernel0 (c : Dev nD) (E : Set ℕ) (i : grid0.Coords)
    (arg1 : Memref sig .tc .vmem S1024x2048 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S2048x128 .f32) (harg4 : arg4.IsWhole)
    (arg5 : Memref sig .tc .vmem S1024x128 .bf16) (harg5 : arg5.IsWhole) (arg6 : Memref sig .tc .vmem S1024x128 .bf16) (harg6 : arg6.IsWhole)
    (arg7 : Memref sig .tc .vmem S1024x128 .bf16) (harg7 : arg7.IsWhole)
    (x0 : Vec F S1024x2048 .f32) (x1 x2 x3 : Vec F S2048x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_o _)
  isplitl [H5]
  · iexists _; isplitr
    swap; · iexact H5
    ipureintro
    exact View.read_writes_eq_canon _ _ _ (cover0_o _)
  iexists _; isplitr
  swap; · iexact H6
  ipureintro
  exact View.read_writes_eq_canon _ _ _ (cover0_o _)

/-! ## The pipeline's proof data -/

/-- The proof data of the projection pipeline on core `c`: the arrays as the region finds them; after the body at
    point `t` each input's buffer at its block and each output's at its store's value over the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KR1a.lean ====
/-
  The attention region (the second kernel call), for any float values — the definitions its three control cases share.

  The grid is 8 batches by 16 key tiles. The body zeroes its accumulator at a batch's first tile, adds the tile's
  contribution at every tile, and copies the accumulator into the output block at the batch's last tile; the output
  block is written back only there. Here: each window's block at a point, the two branch conditions in closed form
  over the grid, where the output window is idle, and the scoped buffers no window stages, with the accumulator split off.
-/
import proofs.«115408_j3504693313667_1_alg».proof.Proof.Gen.Kernel.Launch
import proofs.«115408_j3504693313667_1_alg».proof.Proof.Gen.Kernel.Skeleton
import proofs.«115408_j3504693313667_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: an unfetched point has
    the block index of the point before it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: an unfetched point has
    the block index of the point before it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: an unfetched point has
    the block index of the point before it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- "This is the batch's first key tile": the first conditional's condition, as the body computes it from the tile coordinate. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is the batch's last key tile": the second conditional's condition. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a batch's last tile the output window is idle: nothing is stored into it -/
theorem idleAt1_3 : ∀ t : Fin cfg1.N, ¬cond1_1 (grid1.coords t) → cfg1.idle 3 (grid1.coords t) = true := by decide +kernel
/-- and it is not written back. -/
theorem noFlush1_3 : ∀ t : Fin cfg1.N, ¬cond1_1 (grid1.coords t) → (cfg1.win 3).flush t = false := by decide +kernel
/-- At a batch's last tile it is live. -/
theorem liveAt1_3 : ∀ t : Fin cfg1.N, cond1_1 (grid1.coords t) → cfg1.idle 3 (grid1.coords t) = false := by decide +kernel

/-! ## The staging memrefs at a point, and the accumulator -/

abbrev VO1_3 : View sig .tc .vmem S1x4096x128 .f32 := (Memref.whole cc1_stg3_0 : Memref sig .tc .vmem S1x4096x128 .f32).view
abbrev ms1_0 (t : Fin cfg1.N) : Memref sig .tc .vmem S1x4096x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4096x128 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S4096x128 .f32 := Memref.whole cc1_scratch0
abbrev VS1 : View sig .tc .vmem S4096x128 .f32 := scM1.view

/-- The scoped buffers that are neither a staging buffer of this region nor the accumulator, each at some contents. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region's invariant between points as the launch states it hands the body the accumulator at some contents -/
theorem PhiA1_open (c : Dev nD) :
    (Pipeline.ΦA spec1 c : sProp 𝕄) ⊢ iprop(iprop(others1 (F := F) c ∗ (∃ d, owns (c : Thread nD τ) scM1 fullShare d)) ∗ (∃ r, prngReg c r)) := by
  unfold Pipeline.ΦA; rw [scopedRest1_eq]; simp only [scM1, owns_whole]
  iintro ⟨⟨B0, B1, B2, B3, B4, B5, B6, B7, B8, B9, B10, HS⟩, Hg⟩
  isplitr [Hg]
  · isplitr [HS]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    · iexact HS
  · iexact Hg

/-- and takes it back at any contents. -/
theorem PhiA1_close (c : Dev nD) :
    iprop(iprop(others1 (F := F) c ∗ (∃ d, owns (c : Thread nD τ) scM1 fullShare d)) ∗ (∃ r, prngReg c r)) ⊢ (Pipeline.ΦA spec1 c : sProp 𝕄) := by
  unfold Pipeline.ΦA; rw [scopedRest1_eq]; simp only [scM1, owns_whole]
  iintro ⟨⟨⟨B0, B1, B2, B3, B4, B5, B6, B7, B8, B9, B10⟩, HS⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexact HS
  · iexact Hg

end Cert.Kernel.Hand

end
-- ==== Proof.KR1b.lean ====
/-
  The attention body, case by case: what its stores leave in the accumulator and in the output block.

  Case A — a batch's first key tile: the accumulator is zeroed, then the tile's contribution is added; the output block
  is untouched. Case B — a middle tile: the contribution is added to what the tile before left. Case C — the batch's
  last tile: the same, and the accumulator is copied into the output block. Each case is a run of the body on whole
  staging buffers whose stores, newest first, are found by the run itself.
-/
import proofs.«115408_j3504693313667_1_alg».proof.Proof.KR1a

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case A: first tile, not the last. The accumulator's contents before the point are anything. -/
noncomputable def kernelRun1_A (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : cond1_0 i) (hc1 : ¬cond1_1 i)
    (x0 : Vec F S1x4096x128 .bf16) (x1 x2 : Vec F S1x256x128 .bf16) :
    { LS : List (View.Piece (Elt F) S4096x128 .f32) //
      ∀ (xi3 : Vec F S1x4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
/-- Case B: a middle tile. The accumulator holds `xs`, what the tile before left. -/
noncomputable def kernelRun1_B (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : ¬cond1_1 i)
    (x0 : Vec F S1x4096x128 .bf16) (x1 x2 : Vec F S1x256x128 .bf16) (xs : Vec F S4096x128 .f32) :
    { LS : List (View.Piece (Elt F) S4096x128 .f32) //
      ∀ (xi3 : Vec F S1x4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
/-- Case C: the last tile, not the first. The accumulator holds `xs`; the output block's contents before are anything. -/
noncomputable def kernelRun1_C (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : cond1_1 i)
    (x0 : Vec F S1x4096x128 .bf16) (x1 x2 : Vec F S1x256x128 .bf16) (xs : Vec F S4096x128 .f32) :
    Σ' (L3 : List (View.Piece (Elt F) S1x4096x128 .f32)), { LS : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.Kernel.Hand

end
-- ==== Proof.KR1c.lean ====
/-
  The attention region, point by point: what the accumulator and the output block hold after each grid point, the
  invariant that carries the accumulator from one point to the next, the pipeline's proof data and the body obligation.

  After a batch's first tile the accumulator holds that tile's contribution added to zero; after each later tile, the
  tile's contribution added to what the tile before left; at the batch's last tile the output block receives the
  accumulator, and only then is the block written back.
-/
import proofs.«115408_j3504693313667_1_alg».proof.Proof.KR1b

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The cases' stores cover what they are read back from -/

theorem scover1_A (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : cond1_0 i) (hc1 : ¬cond1_1 i)
    (x0 : Vec F S1x4096x128 .bf16) (x1 x2 : Vec F S1x256x128 .bf16) (y : S4096x128.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S4096x128.size (by sl_kernel_rfl) y

/-- What case A leaves in the accumulator. -/
def sout1_A (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : cond1_0 i) (hc1 : ¬cond1_1 i)
    (x0 : Vec F S1x4096x128 .bf16) (x1 x2 : Vec F S1x256x128 .bf16) : Vec F S4096x128 .f32 :=
  VS1.read (Elt F) (VS1.writes (Elt F) VS1.junk (kernelRun1_A c i arg2 harg2 arg3 harg3 arg4 harg4 arg5 harg5 arg6 harg6 hc0 hc1 x0 x1 x2).1)

theorem scover1_B (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : ¬cond1_1 i)
    (x0 : Vec F S1x4096x128 .bf16) (x1 x2 : Vec F S1x256x128 .bf16) (xs : Vec F S4096x128 .f32) (y : S4096x128.Idx) :
    ∃ pc ∈ (kernelRun1_B c i arg2 harg2 arg3 harg3 arg4 harg4 arg5 harg5 arg6 harg6 hc0 hc1 x0 x1 x2 xs).1, y ∈ pc.1.set :=
  View.cover_of_tiledL (kernelRun1_B c i arg2 harg2 arg3 harg3 arg4 harg4 arg5 harg5 arg6 harg6 hc0 hc1 x0 x1 x2 xs).1 S4096x128.size (by sl_kernel_rfl) y

/-- What case B leaves in the accumulator. -/
def sout1_B (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : ¬cond1_1 i)
    (x0 : Vec F S1x4096x128 .bf16) (x1 x2 : Vec F S1x256x128 .bf16) (xs : Vec F S4096x128 .f32) : Vec F S4096x128 .f32 :=
  VS1.read (Elt F) (VS1.writes (Elt F) VS1.junk (kernelRun1_B c i arg2 harg2 arg3 harg3 arg4 harg4 arg5 harg5 arg6 harg6 hc0 hc1 x0 x1 x2 xs).1)

theorem scover1_C (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : cond1_1 i)
    (x0 : Vec F S1x4096x128 .bf16) (x1 x2 : Vec F S1x256x128 .bf16) (xs : Vec F S4096x128 .f32) (y : S4096x128.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S4096x128.size (by sl_kernel_rfl) y

/-- What case C leaves in the accumulator. -/
def sout1_C (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : cond1_1 i)
    (x0 : Vec F S1x4096x128 .bf16) (x1 x2 : Vec F S1x256x128 .bf16) (xs : Vec F S4096x128 .f32) : Vec F S4096x128 .f32 :=
  VS1.read (Elt F) (VS1.writes (Elt F) VS1.junk (kernelRun1_C c i arg2 harg2 arg3 harg3 arg4 harg4 arg5 harg5 arg6 harg6 hc0 hc1 x0 x1 x2 xs).2.1)

theorem cover1_C_3 (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : cond1_1 i)
    (x0 : Vec F S1x4096x128 .bf16) (x1 x2 : Vec F S1x256x128 .bf16) (xs : Vec F S4096x128 .f32) (y : S1x4096x128.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S1x4096x128.size (by sl_kernel_rfl) y

/-- What case C leaves in the output block. -/
def out1_C_3 (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : cond1_1 i)
    (x0 : Vec F S1x4096x128 .bf16) (x1 x2 : Vec F S1x256x128 .bf16) (xs : Vec F S4096x128 .f32) : Vec F S1x4096x128 .f32 :=
  VO1_3.read (Elt F) (VO1_3.writes (Elt F) VO1_3.junk (kernelRun1_C c i arg2 harg2 arg3 harg3 arg4 harg4 arg5 harg5 arg6 harg6 hc0 hc1 x0 x1 x2 xs).1)

/-- A placeholder for the output block at the points where nothing is stored into it (it is neither written back
    there nor read at the next point). -/
def junk3 : Vec F S1x4096x128 .f32 := VO1_3.read (Elt F) VO1_3.junk

section Region1
variable (V : (c : Dev nD) → (b : Ref sig .tc) → Buf (Elt F) ((c : Thread nD τ).loc b))

/-! ## What the output block and the accumulator hold after each point -/

/-- After the body at position `n`: the output block, then the accumulator — the case the point is in, run at the
    point's buffers and input blocks, on what the point before left in the accumulator. -/
def outsAt1 (c : Dev nD) : (n : ℕ) → n < cfg1.N → Vec F S1x4096x128 .f32 × Vec F S4096x128 .f32
  | 0, hn => (junk3, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (junk3, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (junk3, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (junk3, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (junk3, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before position `n`: before the first point what the launch hands over (every scoped buffer at anything); afterwards
    the other scoped buffers at anything, the accumulator at what the point before left, the generator register at some state. -/
def PhiS (c : Dev nD) : (n : ℕ) → n ≤ cfg1.N → sProp 𝕄
  | 0, _ => Pipeline.ΦA spec1 c
  | n + 1, hn => iprop(iprop(others1 (F := F) c ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(others1 (F := F) c ∗ owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(iprop(others1 (F := F) c ∗ owns (c : Thread nD τ) scM1 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region1

end Cert.Kernel.Hand

end
-- ==== Proof.KR1d.lean ====
/-
  The attention region's body obligation: at every grid point the body, called on the point's staging buffers with
  the accumulator as the invariant holds it, returns the buffers and the accumulator as the proof data say.

  A point's case is read off its position: first tile of a batch (position ≡ 0 mod 16), last tile (≡ 15), or between.
  At the first point of all the accumulator is whatever the launch left; afterwards it is what the point before left.
-/
import proofs.«115408_j3504693313667_1_alg».proof.Proof.KR1c

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 16 = 0
  · have h1 : ¬t.val % 16 = 15 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA1_open c) $$ HΦ
      icases HΦ' with ⟨⟨HO, HS0⟩, Hg⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es, HS0⟩⟩
      isplitl [HO HS0 Hg]
      · isplitl [HO HS0]
        · isplitl [HO]; · iexact HO
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HO, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es, HS0⟩⟩
      isplitl [HO HS0 Hg]
      · isplitl [HO HS0]
        · isplitl [HO]; · iexact HO
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS_castSucc V c t, PhiS_pos V c _ _ hz]
      iintro ⟨⟨⟨HO, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es, HS0⟩⟩
      isplitl [HO HS0 Hg]
      · isplitl [HO HS0]
        · isplitl [HO]; · iexact HO
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS_castSucc V c t, PhiS_pos V c _ _ hz]
      iintro ⟨⟨⟨HO, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es, HS0⟩⟩
      isplitl [HO HS0 Hg]
      · isplitl [HO HS0]
        · isplitl [HO]; · iexact HO
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the launch's form back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨⟨HO, HS0⟩, Hg⟩
  iapply (PhiA1_close c)
  isplitl [HO HS0]
  · isplitl [HO]; · iexact HO
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

/-- The same with the launch's form spelt out: the scoped rest and the generator register. -/
theorem hout1' (c : Dev nD) : (dat1 V c).Φ (Fin.last cfg1.N)
    ⊢ iprop(Pipeline.scopedRest (Ix := Unit) (Name := ℕ) (U := UR sig nD τ) (Lvl := ℕ) (Val := Elt F) spec1 c ∗ (∃ r, prngReg c r)) := by
  have h := hout1 V c
  unfold Pipeline.ΦA at h
  exact h

end Region1

end Cert.Kernel.Hand

end
-- ==== Proof.KRun.lean ====
/-
  The whole run of the kernel's program, for any float values: a reshape, the projection region, three reshapes, the
  attention region. The buffers' contents at each boundary are a fold from the launch memory — a host stretch applies
  its operations, a region leaves its arrays at what its write-backs make of them and every other buffer as entered —
  and the run ends with every unscoped buffer at the last boundary's contents. The argument arrays are written by
  nothing on the way, so they end as launched.
-/
import proofs.«115408_j3504693313667_1_alg».proof.Proof.KR0
import proofs.«115408_j3504693313667_1_alg».proof.Proof.KR1d

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => m ((c : Dev nD), b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev U3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := (W2_arr m c 1).trans (((dat0 (U1 m) c).arrAt_in 1 rfl _).trans (A_eq0 (U1 m) c 1))
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := (W2_arr m c 2).trans (((dat0 (U1 m) c).arrAt_in 2 rfl _).trans (A_eq0 (U1 m) c 2))
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := (W2_arr m c 3).trans (((dat0 (U1 m) c).arrAt_in 3 rfl _).trans (A_eq0 (U1 m) c 3))
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (U3 m) c).Φ (Fin.last cfg1.N) from rfl]
    iintro H
    ihave H' := (hout1' (U3 m) c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, with
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.Kernel.Hand

end
-- ==== Proof.R0.lean ====
/-
  The projection region (the first kernel call), for any float values: what each point's body leaves in the three
  output blocks as a function of the point's input blocks, the body's triple, and the pipeline's proof data.

  At grid point `t` the body reads a block of 1024 input rows and the three whole weight matrices and stores, into
  each of the three output blocks, the rows' product with one weight matrix. Nothing is kept between points.
-/
import proofs.«115408_j3504693313667_1_alg».proof.Proof.Gen.KernelIdeal.Launch
import proofs.«115408_j3504693313667_1_alg».proof.Proof.Gen.KernelIdeal.Skeleton
import proofs.«115408_j3504693313667_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: an unfetched point has
    the block index of the point before it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: an unfetched point has
    the block index of the point before it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: an unfetched point has
    the block index of the point before it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: an unfetched point has
    the block index of the point before it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's whole-buffer rectangles -/

abbrev r0_x : Rect S1024x2048 := Rect.unit (s := S1024x2048) ![0, 0] S1024x2048.size inb_S1024x2048_S1024x2048_0_0
abbrev r0_w : Rect S2048x128 := Rect.unit (s := S2048x128) ![0, 0] S2048x128.size inb_S2048x128_S2048x128_0_0
abbrev r0_o : Rect S1024x128 := Rect.unit (s := S1024x128) ![0, 0] S1024x128.size inb_S1024x128_S1024x128_0_0

/-! ## What the body leaves in each output block: its one store, over the loaded blocks -/

def out0_4 (x0 : Vec F S1024x2048 .f32) (x1 : Vec F S2048x128 .f32) : Vec F S1024x128 .bf16 :=
  View.canon [⟨r0_o, k0_pay2 (View.ld x0 r0_x) (View.ld x1 r0_w)⟩]
def out0_5 (x0 : Vec F S1024x2048 .f32) (x2 : Vec F S2048x128 .f32) : Vec F S1024x128 .bf16 :=
  View.canon [⟨r0_o, k0_pay3 (View.ld x0 r0_x) (View.ld x2 r0_w)⟩]
def out0_6 (x0 : Vec F S1024x2048 .f32) (x3 : Vec F S2048x128 .f32) : Vec F S1024x128 .bf16 :=
  View.canon [⟨r0_o, k0_pay4 (View.ld x0 r0_x) (View.ld x3 r0_w)⟩]

/-- One store of the whole block covers the block. -/
theorem cover0_o (p0 : Vec F S1024x128 .bf16) (y : S1024x128.Idx) :
    ∃ pc ∈ ([⟨r0_o, p0⟩] : List (View.Piece (Elt F) S1024x128 .bf16)), y ∈ pc.1.set :=
  View.cover_of_tiled [⟨r0_o, p0⟩] S1024x128.size (by rfl) y

/-! ## The body's triple -/

set_option maxHeartbeats 4000000 in
/-- On whole staging buffers, the inputs' at contents `x·` and the outputs' at anything, the body runs to the
    continuation holding the inputs' as they were and each output's at its store's value. -/
theorem sound_kernel0 (c : Dev nD) (E : Set ℕ) (i : grid0.Coords)
    (arg1 : Memref sig .tc .vmem S1024x2048 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S2048x128 .f32) (harg4 : arg4.IsWhole)
    (arg5 : Memref sig .tc .vmem S1024x128 .bf16) (harg5 : arg5.IsWhole) (arg6 : Memref sig .tc .vmem S1024x128 .bf16) (harg6 : arg6.IsWhole)
    (arg7 : Memref sig .tc .vmem S1024x128 .bf16) (harg7 : arg7.IsWhole)
    (x0 : Vec F S1024x2048 .f32) (x1 x2 x3 : Vec F S2048x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_o _)
  isplitl [H5]
  · iexists _; isplitr
    swap; · iexact H5
    ipureintro
    exact View.read_writes_eq_canon _ _ _ (cover0_o _)
  iexists _; isplitr
  swap; · iexact H6
  ipureintro
  exact View.read_writes_eq_canon _ _ _ (cover0_o _)

/-! ## The pipeline's proof data -/

/-- The proof data of the projection pipeline on core `c`: the arrays as the region finds them; after the body at
    point `t` each input's buffer at its block and each output's at its store's value over the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.R1a.lean ====
/-
  The attention region (the second kernel call), for any float values — the definitions its three control cases share.

  The grid is 8 batches by 16 key tiles. The body zeroes its accumulator at a batch's first tile, adds the tile's
  contribution at every tile, and copies the accumulator into the output block at the batch's last tile; the output
  block is written back only there. Here: each window's block at a point, the two branch conditions in closed form
  over the grid, where the output window is idle, and the scoped buffers no window stages, with the accumulator split off.
-/
import proofs.«115408_j3504693313667_1_alg».proof.Proof.Gen.KernelIdeal.Launch
import proofs.«115408_j3504693313667_1_alg».proof.Proof.Gen.KernelIdeal.Skeleton
import proofs.«115408_j3504693313667_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: an unfetched point has
    the block index of the point before it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: an unfetched point has
    the block index of the point before it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: an unfetched point has
    the block index of the point before it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- "This is the batch's first key tile": the first conditional's condition, as the body computes it from the tile coordinate. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is the batch's last key tile": the second conditional's condition. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a batch's last tile the output window is idle: nothing is stored into it -/
theorem idleAt1_3 : ∀ t : Fin cfg1.N, ¬cond1_1 (grid1.coords t) → cfg1.idle 3 (grid1.coords t) = true := by decide +kernel
/-- and it is not written back. -/
theorem noFlush1_3 : ∀ t : Fin cfg1.N, ¬cond1_1 (grid1.coords t) → (cfg1.win 3).flush t = false := by decide +kernel
/-- At a batch's last tile it is live. -/
theorem liveAt1_3 : ∀ t : Fin cfg1.N, cond1_1 (grid1.coords t) → cfg1.idle 3 (grid1.coords t) = false := by decide +kernel

/-! ## The staging memrefs at a point, and the accumulator -/

abbrev VO1_3 : View sig .tc .vmem S1x4096x128 .f32 := (Memref.whole cc1_stg3_0 : Memref sig .tc .vmem S1x4096x128 .f32).view
abbrev ms1_0 (t : Fin cfg1.N) : Memref sig .tc .vmem S1x4096x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4096x128 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S4096x128 .f32 := Memref.whole cc1_scratch0
abbrev VS1 : View sig .tc .vmem S4096x128 .f32 := scM1.view

/-- The scoped buffers that are neither a staging buffer of this region nor the accumulator, each at some contents. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region's invariant between points as the launch states it hands the body the accumulator at some contents -/
theorem PhiA1_open (c : Dev nD) :
    (Pipeline.ΦA spec1 c : sProp 𝕄) ⊢ iprop(iprop(others1 (F := F) c ∗ (∃ d, owns (c : Thread nD τ) scM1 fullShare d)) ∗ (∃ r, prngReg c r)) := by
  unfold Pipeline.ΦA; rw [scopedRest1_eq]; simp only [scM1, owns_whole]
  iintro ⟨⟨B0, B1, B2, B3, B4, B5, B6, B7, B8, B9, B10, HS⟩, Hg⟩
  isplitr [Hg]
  · isplitr [HS]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    · iexact HS
  · iexact Hg

/-- and takes it back at any contents. -/
theorem PhiA1_close (c : Dev nD) :
    iprop(iprop(others1 (F := F) c ∗ (∃ d, owns (c : Thread nD τ) scM1 fullShare d)) ∗ (∃ r, prngReg c r)) ⊢ (Pipeline.ΦA spec1 c : sProp 𝕄) := by
  unfold Pipeline.ΦA; rw [scopedRest1_eq]; simp only [scM1, owns_whole]
  iintro ⟨⟨⟨B0, B1, B2, B3, B4, B5, B6, B7, B8, B9, B10⟩, HS⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexact HS
  · iexact Hg

end Cert.KernelIdeal.Hand

end
-- ==== Proof.R1b.lean ====
/-
  The attention body, case by case: what its stores leave in the accumulator and in the output block.

  Case A — a batch's first key tile: the accumulator is zeroed, then the tile's contribution is added; the output block
  is untouched. Case B — a middle tile: the contribution is added to what the tile before left. Case C — the batch's
  last tile: the same, and the accumulator is copied into the output block. Each case is a run of the body on whole
  staging buffers whose stores, newest first, are found by the run itself.
-/
import proofs.«115408_j3504693313667_1_alg».proof.Proof.R1a

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case A: first tile, not the last. The accumulator's contents before the point are anything. -/
noncomputable def kernelRun1_A (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : cond1_0 i) (hc1 : ¬cond1_1 i)
    (x0 : Vec F S1x4096x128 .bf16) (x1 x2 : Vec F S1x256x128 .bf16) :
    { LS : List (View.Piece (Elt F) S4096x128 .f32) //
      ∀ (xi3 : Vec F S1x4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
/-- Case B: a middle tile. The accumulator holds `xs`, what the tile before left. -/
noncomputable def kernelRun1_B (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : ¬cond1_1 i)
    (x0 : Vec F S1x4096x128 .bf16) (x1 x2 : Vec F S1x256x128 .bf16) (xs : Vec F S4096x128 .f32) :
    { LS : List (View.Piece (Elt F) S4096x128 .f32) //
      ∀ (xi3 : Vec F S1x4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
/-- Case C: the last tile, not the first. The accumulator holds `xs`; the output block's contents before are anything. -/
noncomputable def kernelRun1_C (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : cond1_1 i)
    (x0 : Vec F S1x4096x128 .bf16) (x1 x2 : Vec F S1x256x128 .bf16) (xs : Vec F S4096x128 .f32) :
    Σ' (L3 : List (View.Piece (Elt F) S1x4096x128 .f32)), { LS : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.KernelIdeal.Hand

end
-- ==== Proof.R1c.lean ====
/-
  The attention region, point by point: what the accumulator and the output block hold after each grid point, the
  invariant that carries the accumulator from one point to the next, the pipeline's proof data and the body obligation.

  After a batch's first tile the accumulator holds that tile's contribution added to zero; after each later tile, the
  tile's contribution added to what the tile before left; at the batch's last tile the output block receives the
  accumulator, and only then is the block written back.
-/
import proofs.«115408_j3504693313667_1_alg».proof.Proof.R1b

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The cases' stores cover what they are read back from -/

theorem scover1_A (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : cond1_0 i) (hc1 : ¬cond1_1 i)
    (x0 : Vec F S1x4096x128 .bf16) (x1 x2 : Vec F S1x256x128 .bf16) (y : S4096x128.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S4096x128.size (by sl_kernel_rfl) y

/-- What case A leaves in the accumulator. -/
def sout1_A (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : cond1_0 i) (hc1 : ¬cond1_1 i)
    (x0 : Vec F S1x4096x128 .bf16) (x1 x2 : Vec F S1x256x128 .bf16) : Vec F S4096x128 .f32 :=
  VS1.read (Elt F) (VS1.writes (Elt F) VS1.junk (kernelRun1_A c i arg2 harg2 arg3 harg3 arg4 harg4 arg5 harg5 arg6 harg6 hc0 hc1 x0 x1 x2).1)

theorem scover1_B (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : ¬cond1_1 i)
    (x0 : Vec F S1x4096x128 .bf16) (x1 x2 : Vec F S1x256x128 .bf16) (xs : Vec F S4096x128 .f32) (y : S4096x128.Idx) :
    ∃ pc ∈ (kernelRun1_B c i arg2 harg2 arg3 harg3 arg4 harg4 arg5 harg5 arg6 harg6 hc0 hc1 x0 x1 x2 xs).1, y ∈ pc.1.set :=
  View.cover_of_tiledL (kernelRun1_B c i arg2 harg2 arg3 harg3 arg4 harg4 arg5 harg5 arg6 harg6 hc0 hc1 x0 x1 x2 xs).1 S4096x128.size (by sl_kernel_rfl) y

/-- What case B leaves in the accumulator. -/
def sout1_B (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : ¬cond1_1 i)
    (x0 : Vec F S1x4096x128 .bf16) (x1 x2 : Vec F S1x256x128 .bf16) (xs : Vec F S4096x128 .f32) : Vec F S4096x128 .f32 :=
  VS1.read (Elt F) (VS1.writes (Elt F) VS1.junk (kernelRun1_B c i arg2 harg2 arg3 harg3 arg4 harg4 arg5 harg5 arg6 harg6 hc0 hc1 x0 x1 x2 xs).1)

theorem scover1_C (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : cond1_1 i)
    (x0 : Vec F S1x4096x128 .bf16) (x1 x2 : Vec F S1x256x128 .bf16) (xs : Vec F S4096x128 .f32) (y : S4096x128.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S4096x128.size (by sl_kernel_rfl) y

/-- What case C leaves in the accumulator. -/
def sout1_C (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : cond1_1 i)
    (x0 : Vec F S1x4096x128 .bf16) (x1 x2 : Vec F S1x256x128 .bf16) (xs : Vec F S4096x128 .f32) : Vec F S4096x128 .f32 :=
  VS1.read (Elt F) (VS1.writes (Elt F) VS1.junk (kernelRun1_C c i arg2 harg2 arg3 harg3 arg4 harg4 arg5 harg5 arg6 harg6 hc0 hc1 x0 x1 x2 xs).2.1)

theorem cover1_C_3 (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : cond1_1 i)
    (x0 : Vec F S1x4096x128 .bf16) (x1 x2 : Vec F S1x256x128 .bf16) (xs : Vec F S4096x128 .f32) (y : S1x4096x128.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S1x4096x128.size (by sl_kernel_rfl) y

/-- What case C leaves in the output block. -/
def out1_C_3 (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : cond1_1 i)
    (x0 : Vec F S1x4096x128 .bf16) (x1 x2 : Vec F S1x256x128 .bf16) (xs : Vec F S4096x128 .f32) : Vec F S1x4096x128 .f32 :=
  VO1_3.read (Elt F) (VO1_3.writes (Elt F) VO1_3.junk (kernelRun1_C c i arg2 harg2 arg3 harg3 arg4 harg4 arg5 harg5 arg6 harg6 hc0 hc1 x0 x1 x2 xs).1)

/-- A placeholder for the output block at the points where nothing is stored into it (it is neither written back
    there nor read at the next point). -/
def junk3 : Vec F S1x4096x128 .f32 := VO1_3.read (Elt F) VO1_3.junk

section Region1
variable (V : (c : Dev nD) → (b : Ref sig .tc) → Buf (Elt F) ((c : Thread nD τ).loc b))

/-! ## What the output block and the accumulator hold after each point -/

/-- After the body at position `n`: the output block, then the accumulator — the case the point is in, run at the
    point's buffers and input blocks, on what the point before left in the accumulator. -/
def outsAt1 (c : Dev nD) : (n : ℕ) → n < cfg1.N → Vec F S1x4096x128 .f32 × Vec F S4096x128 .f32
  | 0, hn => (junk3, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (junk3, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (junk3, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (junk3, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (junk3, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before position `n`: before the first point what the launch hands over (every scoped buffer at anything); afterwards
    the other scoped buffers at anything, the accumulator at what the point before left, the generator register at some state. -/
def PhiS (c : Dev nD) : (n : ℕ) → n ≤ cfg1.N → sProp 𝕄
  | 0, _ => Pipeline.ΦA spec1 c
  | n + 1, hn => iprop(iprop(others1 (F := F) c ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(others1 (F := F) c ∗ owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(iprop(others1 (F := F) c ∗ owns (c : Thread nD τ) scM1 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region1

end Cert.KernelIdeal.Hand

end
-- ==== Proof.R1d.lean ====
/-
  The attention region's body obligation: at every grid point the body, called on the point's staging buffers with
  the accumulator as the invariant holds it, returns the buffers and the accumulator as the proof data say.

  A point's case is read off its position: first tile of a batch (position ≡ 0 mod 16), last tile (≡ 15), or between.
  At the first point of all the accumulator is whatever the launch left; afterwards it is what the point before left.
-/
import proofs.«115408_j3504693313667_1_alg».proof.Proof.R1c

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 16 = 0
  · have h1 : ¬t.val % 16 = 15 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA1_open c) $$ HΦ
      icases HΦ' with ⟨⟨HO, HS0⟩, Hg⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es, HS0⟩⟩
      isplitl [HO HS0 Hg]
      · isplitl [HO HS0]
        · isplitl [HO]; · iexact HO
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HO, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es, HS0⟩⟩
      isplitl [HO HS0 Hg]
      · isplitl [HO HS0]
        · isplitl [HO]; · iexact HO
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS_castSucc V c t, PhiS_pos V c _ _ hz]
      iintro ⟨⟨⟨HO, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es, HS0⟩⟩
      isplitl [HO HS0 Hg]
      · isplitl [HO HS0]
        · isplitl [HO]; · iexact HO
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS_castSucc V c t, PhiS_pos V c _ _ hz]
      iintro ⟨⟨⟨HO, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es, HS0⟩⟩
      isplitl [HO HS0 Hg]
      · isplitl [HO HS0]
        · isplitl [HO]; · iexact HO
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the launch's form back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨⟨HO, HS0⟩, Hg⟩
  iapply (PhiA1_close c)
  isplitl [HO HS0]
  · isplitl [HO]; · iexact HO
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

/-- The same with the launch's form spelt out: the scoped rest and the generator register. -/
theorem hout1' (c : Dev nD) : (dat1 V c).Φ (Fin.last cfg1.N)
    ⊢ iprop(Pipeline.scopedRest (Ix := Unit) (Name := ℕ) (U := UR sig nD τ) (Lvl := ℕ) (Val := Elt F) spec1 c ∗ (∃ r, prngReg c r)) := by
  have h := hout1 V c
  unfold Pipeline.ΦA at h
  exact h

end Region1

end Cert.KernelIdeal.Hand

end
-- ==== Proof.Run.lean ====
/-
  The whole run of the kernel's program, for any float values: a reshape, the projection region, three reshapes, the
  attention region. The buffers' contents at each boundary are a fold from the launch memory — a host stretch applies
  its operations, a region leaves its arrays at what its write-backs make of them and every other buffer as entered —
  and the run ends with every unscoped buffer at the last boundary's contents. The argument arrays are written by
  nothing on the way, so they end as launched.
-/
import proofs.«115408_j3504693313667_1_alg».proof.Proof.R0
import proofs.«115408_j3504693313667_1_alg».proof.Proof.R1d

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => m ((c : Dev nD), b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev U3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := (W2_arr m c 1).trans (((dat0 (U1 m) c).arrAt_in 1 rfl _).trans (A_eq0 (U1 m) c 1))
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := (W2_arr m c 2).trans (((dat0 (U1 m) c).arrAt_in 2 rfl _).trans (A_eq0 (U1 m) c 2))
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := (W2_arr m c 3).trans (((dat0 (U1 m) c).arrAt_in 3 rfl _).trans (A_eq0 (U1 m) c 3))
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (U3 m) c).Φ (Fin.last cfg1.N) from rfl]
    iintro H
    ihave H' := (hout1' (U3 m) c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, with
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.KernelIdeal.Hand

end
-- ==== Proof.Spec.lean ====
/-
  The mathematics both programs compute, on the extended reals.

  Three projections of the input rows, `x · W`; scores `(K · Q) · scale`; a softmax of each KEY's row of scores
  over the QUERIES (subtract the row's maximum, exponentiate, divide by the row's sum); and the weighted sum of the
  value rows over the keys. The kernel forms it tile by tile over the keys and adds the tiles' contributions; the
  reference forms it at once. Everything here is a function of finite index types into the extended reals.
-/
import Idealize.ShloMosaic.PureOps.Ideal

noncomputable section

namespace Cert.Attn

open Idealize.ShloMosaic

/-- The factor the scores are multiplied by: the single-precision word both programs print. -/
def scale : EReal := Ideal.ofBits .f32 0x3E3504F3#32

/-- The value a running maximum starts from: the word of minus infinity. -/
def negInf : EReal := Ideal.ofBits .f32 0xFF800000#32

/-- The maximum of a row of scores, started from `negInf` and once more compared with it. -/
def rowMax {n : ℕ} (s : Fin n → EReal) : EReal :=
  max negInf ((Finset.univ : Finset (Fin n)).fold max negInf s)

/-- Entry `j` of the softmax of the row `s`: `exp (s j - max) / ∑ exp (s · - max)`. -/
def smax {n : ℕ} (s : Fin n → EReal) (j : Fin n) : EReal :=
  Ideal.div (Ideal.exp (s j - rowMax s)) (∑ j' : Fin n, Ideal.exp (s j' - rowMax s))

/-- A row of the input against a column of a weight matrix. -/
def proj {M E H : ℕ} (x : Fin M → Fin E → EReal) (w : Fin E → Fin H → EReal) (r : Fin M) (h : Fin H) : EReal :=
  ∑ e : Fin E, x r e * w e h

/-- The scores of key row `kr` against every query: `(∑ kr · q) · scale`, the key on the left. -/
def keyRow {T H : ℕ} (q : Fin T → Fin H → EReal) (kr : Fin H → EReal) : Fin T → EReal :=
  fun q' => (∑ hh : Fin H, kr hh * q q' hh) * scale

/-- What `n` keys contribute to the output at query `qi`, feature `h`: each key's softmax weight of the query
    times the key's value. -/
def tileTerm {T H n : ℕ} (q : Fin T → Fin H → EReal) (k v : Fin n → Fin H → EReal) (qi : Fin T) (h : Fin H) : EReal :=
  ∑ kk : Fin n, smax (keyRow q (k kk)) qi * v kk h

/-- The reference's result at batch `b`, query `qi`, feature `h`: the query on the left in the scores, all keys
    in one sum. -/
def G (X : Fin 8 → Fin 4096 → Fin 2048 → EReal) (Wq Wk Wv : Fin 2048 → Fin 128 → EReal)
    (b : Fin 8) (qi : Fin 4096) (h : Fin 128) : EReal :=
  ∑ k : Fin 4096,
    smax (fun q' : Fin 4096 => (∑ hh : Fin 128, proj (X b) Wq q' hh * proj (X b) Wk k hh) * scale) qi
      * proj (X b) Wv k h

/-- Key number `kk` of tile `j`, among the 4096 keys cut into 16 tiles of 256. -/
def keyOf (j : Fin 16) (kk : Fin 256) : Fin 4096 := ⟨256 * j.val + kk.val, by omega⟩

/-- Tile `j`'s contribution to the output at batch `b`, query `qi`, feature `h`, from the projected rows: the key
    on the left in the scores. -/
def tileOf (X : Fin 8 → Fin 4096 → Fin 2048 → EReal) (Wq Wk Wv : Fin 2048 → Fin 128 → EReal)
    (b : Fin 8) (j : Fin 16) (qi : Fin 4096) (h : Fin 128) : EReal :=
  tileTerm (proj (X b) Wq) (fun kk => proj (X b) Wk (keyOf j kk)) (fun kk => proj (X b) Wv (keyOf j kk)) qi h

end Cert.Attn

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibTransposedDot.lean ====
/-
  A matrix product whose right operand is contracted on its LAST axis, read at an entry, at the ideal instance.

  For dimension numbers that contract the left operand's columns with the right operand's columns and have no batch
  axis (`DotDims.transposedRhs m k n`: `l rᵀ` without a materialised transpose), the kernel's product into a zero
  accumulator is, at entry `(p, j)`, the sum over `q < k` of `l (p, q) · r (j, q)` on the extended reals. Stated for
  any record equal to that one, so that each printed record (a `def` of its own) can be cited by `rfl`.
-/
import Idealize.ShloMosaic.Lib.ValueIdx
import Idealize.ShloMosaic.PureOps.Ideal.Laws

noncomputable section

namespace Cert.TransposedDot

open Idealize.ShloMosaic Idealize.ShloMosaic.ValueIdx

variable {m k n : Nat} {φ₁ φ₂ : FTy}

/-- The sum over the one contraction axis, re-indexed by `Fin k`, with the operand indices at an output entry
    `(p, j)` written by coordinates: row `p` of the left operand against row `j` of the right. -/
theorem sum_transposed (l : (⟨2, ![m, k]⟩ : Shape).Idx → EReal) (r : (⟨2, ![n, k]⟩ : Shape).Idx → EReal) (p : Fin m) (j : Fin n) :
    (∑ q : (DotDims.transposedRhs m k n).contr.Idx,
        l ((DotDims.transposedRhs m k n).lhsIdx (ix2 p j) q) * r ((DotDims.transposedRhs m k n).rhsIdx (ix2 p j) q))
      = ∑ q : Fin k, l (ix2 p q) * r (ix2 j q) := by
  rw [← Equiv.sum_comp (contrEquiv1 (DotDims.transposedRhs m k n) k rfl rfl).symm]
  refine Finset.sum_congr rfl fun q _ => ?_
  have hq := contrEquiv1_symm_val (DotDims.transposedRhs m k n) k rfl rfl q
  have el : (DotDims.transposedRhs m k n).lhsIdx (ix2 p j) ((contrEquiv1 (DotDims.transposedRhs m k n) k rfl rfl).symm q) = ix2 p q :=
    funext fun a => Fin.ext (by
      match a with
      | ⟨0, _⟩ => rfl
      | ⟨1, _⟩ => exact ((DotDims.transposedRhs m k n).lhsIdx_val_of_single rfl _ _).trans hq)
  have er : (DotDims.transposedRhs m k n).rhsIdx (ix2 p j) ((contrEquiv1 (DotDims.transposedRhs m k n) k rfl rfl).symm q) = ix2 j q :=
    funext fun a => Fin.ext (by
      match a with
      | ⟨0, _⟩ => rfl
      | ⟨1, _⟩ => exact ((DotDims.transposedRhs m k n).rhsIdx_val_of_single rfl _ _).trans hq)
  rw [el, er]

/-- The kernel's product into the zero splat, at entry `(p, j)`. -/
theorem matmul_zero_ix2 (D : DotDims ⟨2, ![m, k]⟩ ⟨2, ![n, k]⟩ ⟨2, ![m, n]⟩) (hD : D = DotDims.transposedRhs m k n)
    (prec : Option ContractPrecision) (l : FVec Ideal ⟨2, ![m, k]⟩ φ₁) (r : FVec Ideal ⟨2, ![n, k]⟩ φ₂) (p : Fin m) (j : Fin n) :
    matmul D prec l r (constant (F := Ideal) ⟨2, ![m, n]⟩ .f32 0x00000000#32) (ix2 p j) = ∑ q : Fin k, l (ix2 p q) * r (ix2 j q) := by
  subst hD
  simp only [matmul]
  rw [Ideal.matmul_constant_zero_apply]
  exact sum_transposed l r p j

end Cert.TransposedDot

end
-- ==== Proof.LibRank3.lean ====
/-
  Layout operations and one-axis reductions of rank-3 arrays read at an index written by coordinates.

  A reduction of `[a, b, c]` over its middle or its last axis with kept dimensions comes back over the reduced
  axis through a cast to `[a, 1, c]` (or `[a, b, 1]`) and a broadcast to `[a, b, c]`; the same two steps carry a
  matrix `[a, b]` along a new last axis (`[a, b] → [a, b, 1] → [a, b, c]`) or along a new middle axis
  (`[a, c] → [a, 1, c] → [a, b, c]`). Each is read here at `(i, j, k)`. The reductions: at the ideal values a sum
  over one axis is the `Fin`-indexed sum over that axis's coordinates, and a maximum over the last axis of a matrix
  is the fold of `max` over them. General lemmas: any extents.
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A matrix carried along a new last axis: `[a, b] → [a, b, 1] → [a, b, c]` at `(i, j, k)` is the matrix at `(i, j)`. -/
theorem keepLast_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A matrix carried along a new middle axis: `[a, c] → [a, 1, c] → [a, b, c]` at `(i, j, k)` is the matrix at `(i, k)`. -/
theorem keepMid_apply {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-! ## One-axis reductions at the ideal values, at coordinates -/

variable {φ : FTy}

/-- The sum of an `[a, b]` matrix over its last axis, at row `i`. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun d => Fin.ext (by
      match d with | ⟨0, _⟩ => rfl | ⟨1, _⟩ => rfl)))

/-- The maximum of an `[a, b]` matrix over its last axis, at row `i`: the fold of `max` from the accumulator's value. -/
theorem max_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun j => src (ix2 i j)) :=
  (Ideal.multiReduction_maximumf_single src acc h hφ hacc (ix1 i)).trans
    (congrArg (Finset.fold max (Ideal.ofBits φ acc) · (Finset.univ : Finset (Fin b)))
      (funext fun j => congrArg src (funext fun d => Fin.ext (by
        match d with | ⟨0, _⟩ => rfl | ⟨1, _⟩ => rfl))))

/-- The sum of an `[a, b, c]` array over its middle axis, at `(i, k)`. -/
theorem sum_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun d => Fin.ext (by
      match d with | ⟨0, _⟩ => rfl | ⟨1, _⟩ => rfl | ⟨2, _⟩ => rfl)))

/-- The sum of an `[a, b, c]` array over its last axis, at `(i, j)`. -/
theorem sum_last3 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by
      match d with | ⟨0, _⟩ => rfl | ⟨1, _⟩ => rfl | ⟨2, _⟩ => rfl)))

end Cert.LibRank3
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.Payload.lean ====
/-
  The kernel's payloads read at an index, on the extended reals.

  The projection kernel stores three products of a block of input rows `[1024, 2048]` with a weight `[2048, 128]`:
  entry `(p, j)` is `∑ e, x (p, e) · w (e, j)`, the format changes being the identity on extended reals. The attention
  kernel's accumulator starts as the zero splat, takes one key tile's contribution per step, and is stored out under a
  leading unit axis at the end. A tile's contribution, at query `qi` and feature `h`: the scores of the tile's 256 keys
  against the 4096 queries, `(∑ hh, k (kk, hh) · q (q', hh)) · scale`; of each key's row of scores the maximum over the
  queries, the exponentials of the differences, their sum, and the quotients; and the sum over the 256 keys of a key's
  quotient at `qi` times the key's value at `h` — a product that contracts both operands' FIRST axes.
-/
import proofs.«115408_j3504693313667_1_alg».proof.Proof.Gen.KernelIdeal.Skeleton
import proofs.«115408_j3504693313667_1_alg».proof.Proof.Spec
import proofs.«115408_j3504693313667_1_alg».proof.Proof.LibPlainDot
import proofs.«115408_j3504693313667_1_alg».proof.Proof.LibTransposedDot
import proofs.«115408_j3504693313667_1_alg».proof.Proof.LibRank3
import proofs.«115408_j3504693313667_1_alg».proof.Proof.LibKeepdims
import Idealize.ShloMosaic.Lib.ValueIdx
import Idealize.ShloMosaic.Lib.Pipeline.Value
import Idealize.ShloMosaic.PureOps.Ideal.Laws
noncomputable section
namespace Cert.KernelIdeal.Payload
open Idealize.ShloMosaic Idealize.ShloMosaic.ValueIdx Cert.KernelIdeal Cert.KernelIdeal.Gen

/-- The left operand of the three projections: the loaded block itself. -/
private theorem k0_pay1_apply (x : Vec Ideal S1024x2048 .f32) (i : S1024x2048.Idx) :
    k0_pay1 (F := Ideal) x i = x i := by
  simp only [k0_pay1]
  rw [truncf_apply, shapeCast_self]

theorem k0_pay2_apply (x : Vec Ideal S1024x2048 .f32) (w : Vec Ideal S2048x128 .f32) (p : Fin 1024) (j : Fin 128) :
    k0_pay2 (F := Ideal) x w (ix2 p j) = Cert.Attn.proj (fun r e => x (ix2 r e)) (fun e h => w (ix2 e h)) p j := by
  simp only [k0_pay2]
  rw [truncf_apply]
  refine (Cert.PlainDot.matmul_zero_ix2 dot_S1024x2048_S2048x128_S1024x128_1_0_0_1_n_n rfl none _ _ p j).trans ?_
  unfold Cert.Attn.proj
  refine Finset.sum_congr rfl fun e _ => ?_
  rw [k0_pay1_apply, truncf_apply]

theorem k0_pay3_apply (x : Vec Ideal S1024x2048 .f32) (w : Vec Ideal S2048x128 .f32) (p : Fin 1024) (j : Fin 128) :
    k0_pay3 (F := Ideal) x w (ix2 p j) = Cert.Attn.proj (fun r e => x (ix2 r e)) (fun e h => w (ix2 e h)) p j := by
  simp only [k0_pay3]
  rw [truncf_apply]
  refine (Cert.PlainDot.matmul_zero_ix2 dot_S1024x2048_S2048x128_S1024x128_1_0_0_1_n_n rfl none _ _ p j).trans ?_
  unfold Cert.Attn.proj
  refine Finset.sum_congr rfl fun e _ => ?_
  rw [k0_pay1_apply, truncf_apply]

theorem k0_pay4_apply (x : Vec Ideal S1024x2048 .f32) (w : Vec Ideal S2048x128 .f32) (p : Fin 1024) (j : Fin 128) :
    k0_pay4 (F := Ideal) x w (ix2 p j) = Cert.Attn.proj (fun r e => x (ix2 r e)) (fun e h => w (ix2 e h)) p j := by
  simp only [k0_pay4]
  rw [truncf_apply]
  refine (Cert.PlainDot.matmul_zero_ix2 dot_S1024x2048_S2048x128_S1024x128_1_0_0_1_n_n rfl none _ _ p j).trans ?_
  unfold Cert.Attn.proj
  refine Finset.sum_congr rfl fun e _ => ?_
  rw [k0_pay1_apply, truncf_apply]

theorem k1_pay1_apply (a : Vec Ideal S4096x128 .f32) (qi : Fin 4096) (h : Fin 128) :
    k1_pay1 (F := Ideal) a (ix3 (0 : Fin 1) qi h) = a (ix2 qi h) := by
  simp only [k1_pay1]
  refine shapeCast_apply a _ _ _ ?_
  rw [Shape.rowMajor_val_two, Shape.rowMajor_val_three]
  show qi.val * 128 + h.val = ((0 : Fin 1).val * 4096 + qi.val) * 128 + h.val
  simp

theorem k1_pay2_apply (qi : Fin 4096) (h : Fin 128) : k1_pay2 (F := Ideal) (ix2 qi h) = 0 := by
  simp only [k1_pay2]
  rw [shapeCast_self, broadcast_apply]
  exact Ideal.ofBits_zero_f32

/-- Dropping a leading unit axis: an array `[1, n, c]` cast to `[n, c]` reads, at `(r, k)`, the operand at `(0, r, k)`. -/
private theorem dropUnit_apply {α : Type} {n c : ℕ} (x : (⟨3, ![1, n, c]⟩ : Shape).Idx → α)
    (h : (⟨3, ![1, n, c]⟩ : Shape).ShapeCasts ⟨2, ![n, c]⟩) (r : Fin n) (k : Fin c) :
    shapeCast ⟨2, ![n, c]⟩ x h (ix2 r k) = x (ix3 (0 : Fin 1) r k) :=
  shapeCast_apply x h _ _ (by
    rw [Shape.rowMajor_val_three, Shape.rowMajor_val_two]
    show ((0 : Fin 1).val * n + r.val) * c + k.val = r.val * c + k.val
    simp)

/-- A product contracting BOTH operands' first axes, into the zero splat, at entry `(p, j)`:
    the sum over the 256 rows of `l (q, p) · r (q, j)`. -/
private theorem matmul_firstAxes_zero_ix2 {φ₁ φ₂ : FTy} (prec : Option ContractPrecision)
    (l : FVec Ideal S256x4096 φ₁) (r : FVec Ideal S256x128 φ₂) (p : Fin 4096) (j : Fin 128) :
    matmul dot_S256x4096_S256x128_S4096x128_0_0_1_1_n_n prec l r (constant (F := Ideal) S4096x128 .f32 0x00000000#32) (ix2 p j)
      = ∑ q : Fin 256, l (ix2 q p) * r (ix2 q j) := by
  simp only [matmul]
  rw [Ideal.matmul_constant_zero_apply,
    ← Equiv.sum_comp (contrEquiv1 dot_S256x4096_S256x128_S4096x128_0_0_1_1_n_n 256 rfl rfl).symm]
  refine Finset.sum_congr rfl fun q _ => ?_
  have hq := contrEquiv1_symm_val dot_S256x4096_S256x128_S4096x128_0_0_1_1_n_n 256 rfl rfl q
  have el : dot_S256x4096_S256x128_S4096x128_0_0_1_1_n_n.lhsIdx (ix2 p j)
      ((contrEquiv1 dot_S256x4096_S256x128_S4096x128_0_0_1_1_n_n 256 rfl rfl).symm q) = ix2 q p :=
    funext fun a => Fin.ext (by
      match a with
      | ⟨0, _⟩ => exact (dot_S256x4096_S256x128_S4096x128_0_0_1_1_n_n.lhsIdx_val_of_single rfl _ _).trans hq
      | ⟨1, _⟩ => rfl)
  have er : dot_S256x4096_S256x128_S4096x128_0_0_1_1_n_n.rhsIdx (ix2 p j)
      ((contrEquiv1 dot_S256x4096_S256x128_S4096x128_0_0_1_1_n_n 256 rfl rfl).symm q) = ix2 q j :=
    funext fun a => Fin.ext (by
      match a with
      | ⟨0, _⟩ => exact (dot_S256x4096_S256x128_S4096x128_0_0_1_1_n_n.rhsIdx_val_of_single rfl _ _).trans hq
      | ⟨1, _⟩ => rfl)
  rw [el, er]

/-- The scaled scores of a key tile against all the queries, at `(kk, q')`: key row `kk` against query row `q'`,
    times the scale. -/
private theorem scores_apply (q : Vec Ideal S1x4096x128 .bf16) (k : Vec Ideal S1x256x128 .bf16)
    (h1 : S1x256x128.ShapeCasts S256x128) (h2 : S1x4096x128.ShapeCasts S4096x128) (kk : Fin 256) (q' : Fin 4096) :
    mulf (matmul dot_S256x128_S4096x128_S256x4096_1_1_0_0_n_n none (shapeCast S256x128 k h1 : FVec Ideal S256x128 .bf16)
        (shapeCast S4096x128 q h2 : FVec Ideal S4096x128 .bf16) (constant (F := Ideal) S256x4096 .f32 0x00000000#32))
      (broadcast S256x4096 (Scalar.ofBits (F := Ideal) .f32 0x3E3504F3#32)) (ix2 kk q')
    = Cert.Attn.keyRow (fun q' hh => q (ix3 (0 : Fin 1) q' hh)) (fun hh => k (ix3 (0 : Fin 1) kk hh)) q' := by
  rw [mulf_apply, broadcast_apply,
    Cert.TransposedDot.matmul_zero_ix2 dot_S256x128_S4096x128_S256x4096_1_1_0_0_n_n rfl none _ _ kk q']
  unfold Cert.Attn.keyRow Cert.Attn.scale
  refine congrArg₂ (· * ·) (Finset.sum_congr rfl fun hh _ => ?_) rfl
  rw [dropUnit_apply, dropUnit_apply]

/-- The row maximum of a score matrix, kept along the queries: at `(kk, q')` the maximum of row `kk`. -/
private theorem rowMax_keep_apply (s : FVec Ideal S256x4096 .f32) (hr : S256x4096.Reduces [1] S256) (hφ : FKind.Formats .f32)
    (hm : (0xFF800000#32 : BitVec (FTy.bits .f32)) = FKind.maximumf.neutral .f32 hφ)
    (hc : S256.ShapeCasts S256x1) (hb : S256x1.Broadcasts S256x4096)
    (kk : Fin 256) (q' : Fin 4096) :
    (broadcastTo S256x4096 (shapeCast S256x1 (maximumf (broadcast S256 (Scalar.ofBits (F := Ideal) .f32 0xFF800000#32)) (multiReduction .maximumf [1] S256 s 0xFF800000#32 hr hφ hm)) hc) hb) (ix2 kk q') = Cert.Attn.rowMax (fun j => s (ix2 kk j)) := by
  rw [Cert.LibKeepdims.broadcastTo_a1_ab_apply, Cert.LibKeepdims.shapeCast_a_a1_apply, maximumf_apply, broadcast_apply,
    Cert.LibRank3.max_last2]
  rfl

/-- The row sum of a matrix, kept along the queries: at `(kk, q')` the sum of row `kk`. -/
private theorem rowSum_keep_apply (e : FVec Ideal S256x4096 .f32) (hr : S256x4096.Reduces [1] S256) (hφ : FKind.Formats .f32)
    (ha : (0x00000000#32 : BitVec (FTy.bits .f32)) = FKind.add.neutral .f32 hφ)
    (hc : S256.ShapeCasts S256x1) (hb : S256x1.Broadcasts S256x4096)
    (kk : Fin 256) (q' : Fin 4096) :
    (broadcastTo S256x4096 (shapeCast S256x1 (multiReduction .add [1] S256 e 0x00000000#32 hr hφ ha) hc) hb) (ix2 kk q')
      = ∑ j : Fin 4096, e (ix2 kk j) := by
  rw [Cert.LibKeepdims.broadcastTo_a1_ab_apply, Cert.LibKeepdims.shapeCast_a_a1_apply, Cert.LibRank3.sum_last2]

/-- The softmax of each row of a score matrix over the queries, at `(kk, qi)`. -/
private theorem softmax_apply (s : FVec Ideal S256x4096 .f32) (hr : S256x4096.Reduces [1] S256) (hφ : FKind.Formats .f32)
    (hm : (0xFF800000#32 : BitVec (FTy.bits .f32)) = FKind.maximumf.neutral .f32 hφ)
    (ha : (0x00000000#32 : BitVec (FTy.bits .f32)) = FKind.add.neutral .f32 hφ)
    (hc : S256.ShapeCasts S256x1) (hb : S256x1.Broadcasts S256x4096) (hlt : FTy.bits .bf16 < FTy.bits .f32)
    (kk : Fin 256) (qi : Fin 4096) :
    (truncf .bf16 (divf (exp (subf s (broadcastTo S256x4096 (shapeCast S256x1 (maximumf (broadcast S256 (Scalar.ofBits (F := Ideal) .f32 0xFF800000#32)) (multiReduction .maximumf [1] S256 s 0xFF800000#32 hr hφ hm)) hc) hb))) (broadcastTo S256x4096 (shapeCast S256x1 (multiReduction .add [1] S256 (exp (subf s (broadcastTo S256x4096 (shapeCast S256x1 (maximumf (broadcast S256 (Scalar.ofBits (F := Ideal) .f32 0xFF800000#32)) (multiReduction .maximumf [1] S256 s 0xFF800000#32 hr hφ hm)) hc) hb))) 0x00000000#32 hr hφ ha) hc) hb)) hlt : FVec Ideal S256x4096 .bf16) (ix2 kk qi) = Cert.Attn.smax (fun j => s (ix2 kk j)) qi := by
  have he : ∀ j : Fin 4096, (exp (subf s (broadcastTo S256x4096 (shapeCast S256x1 (maximumf (broadcast S256 (Scalar.ofBits (F := Ideal) .f32 0xFF800000#32)) (multiReduction .maximumf [1] S256 s 0xFF800000#32 hr hφ hm)) hc) hb))) (ix2 kk j)
      = Ideal.exp (s (ix2 kk j) - Cert.Attn.rowMax (fun j => s (ix2 kk j))) := fun j => by
    show Ideal.exp (s (ix2 kk j) - (broadcastTo S256x4096 (shapeCast S256x1 (maximumf (broadcast S256 (Scalar.ofBits (F := Ideal) .f32 0xFF800000#32)) (multiReduction .maximumf [1] S256 s 0xFF800000#32 hr hφ hm)) hc) hb) (ix2 kk j)) = _
    rw [rowMax_keep_apply]
  rw [truncf_apply, divf_apply, rowSum_keep_apply, he]
  unfold Cert.Attn.smax
  exact congrArg _ (Finset.sum_congr rfl fun j _ => he j)

theorem k1_pay3_apply (q : Vec Ideal S1x4096x128 .bf16) (k v : Vec Ideal S1x256x128 .bf16) (a : Vec Ideal S4096x128 .f32)
    (qi : Fin 4096) (h : Fin 128) :
    k1_pay3 (F := Ideal) q k v a (ix2 qi h)
      = a (ix2 qi h) + Cert.Attn.tileTerm (fun q' hh => q (ix3 (0 : Fin 1) q' hh)) (fun kk hh => k (ix3 (0 : Fin 1) kk hh))
          (fun kk hh => v (ix3 (0 : Fin 1) kk hh)) qi h := by
  simp only [k1_pay3]
  rw [shapeCast_self, addf_apply]
  refine congrArg (a (ix2 qi h) + ·) ?_
  refine (matmul_firstAxes_zero_ix2 none _ _ qi h).trans ?_
  unfold Cert.Attn.tileTerm
  refine Finset.sum_congr rfl fun kk _ => ?_
  refine congrArg₂ (· * ·) ?_ (dropUnit_apply v _ kk h)
  refine (softmax_apply _ _ _ _ _ _ _ _ kk qi).trans ?_
  exact congrArg (Cert.Attn.smax · qi) (funext fun j => scores_apply q k _ _ kk j)

end Cert.KernelIdeal.Payload
end
-- ==== Proof.Val0.lean ====
/-
  The projection region's three result arrays, at the ideal values: each is the product of the reshaped input rows
  with one weight matrix, entry by entry.

  Point `t` of the grid reads rows 1024·t … 1024·t + 1023 of the input and the whole weight matrices, and writes back
  the same rows of each result; the 32 points' blocks fill the results.
-/
import proofs.«115408_j3504693313667_1_alg».proof.Proof.R0
import proofs.«115408_j3504693313667_1_alg».proof.Proof.Payload
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

theorem hz2 : (![0, 0] : Fin 2 → Nat) = fun _ => 0 := funext fun a => by fin_cases a <;> rfl

/-- Rows of `X2` against columns of `W`, entry by entry. -/
def Pj (X2 : S32768x2048.Idx → EReal) (W : S2048x128.Idx → EReal) : S32768x128.Idx → EReal :=
  fun i => Cert.Attn.proj (fun r e => X2 (ix2 r e)) (fun e h => W (ix2 e h)) (i 0 : Fin 32768) (i 1 : Fin 128)

/-- The printed index maps over the grid: the row windows move with the point, the weight windows stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem row_lt (t : Fin cfg0.N) (p : Fin 1024) : 1024 * t.val + p.val < 32768 := by
  have := t.isLt; have hN : cfg0.N = 32 := N_0; have := p.isLt; omega

section
variable (V : (c : Dev nD) → (b : Ref sig .tc) → Buf (Elt Ideal) ((c : Thread nD τ).loc b))

/-- Entry `(p, e)` of the row block at point `t` is entry `(1024 t + p, e)` of the reshaped input. -/
theorem iblk0_0_apply (c : Dev nD) (t : Fin cfg0.N) (p : Fin 1024) (e : Fin 2048) :
    iblk0 V c 0 t (ix2 p e) = V c main_v0 (ix2 (⟨1024 * t.val + p.val, row_lt t p⟩ : Fin 32768) e) := by
  have hi := idx0 t
  show V c main_v0 (((cfg0.win 0).blk t).view.emb (ix2 p e)) = _
  refine congrArg (V c main_v0) ?_
  funext a; apply Fin.ext
  match a with
  | ⟨0, _⟩ => show win0_0.index t (0 : Fin 2) * 1024 + 1 * p.val = 1024 * t.val + p.val; omega
  | ⟨1, _⟩ => show win0_0.index t (1 : Fin 2) * 2048 + 1 * e.val = e.val; omega

/-- Entry `(e, j)` of weight window 1's block is that entry of the whole matrix, at every point. -/
theorem iblk0_1_apply (c : Dev nD) (t : Fin cfg0.N) (e : Fin 2048) (j : Fin 128) :
    iblk0 V c 1 t (ix2 e j) = V c main_arg1 (ix2 e j) := by
  have hi := idx0 t
  show V c main_arg1 (((cfg0.win 1).blk t).view.emb (ix2 e j)) = _
  refine congrArg (V c main_arg1) ?_
  funext a; apply Fin.ext
  match a with
  | ⟨0, _⟩ => show win0_1.index t (0 : Fin 2) * 2048 + 1 * e.val = e.val; omega
  | ⟨1, _⟩ => show win0_1.index t (1 : Fin 2) * 128 + 1 * j.val = j.val; omega

/-- Entry `(e, j)` of weight window 2's block is that entry of the whole matrix, at every point. -/
theorem iblk0_2_apply (c : Dev nD) (t : Fin cfg0.N) (e : Fin 2048) (j : Fin 128) :
    iblk0 V c 2 t (ix2 e j) = V c main_arg2 (ix2 e j) := by
  have hi := idx0 t
  show V c main_arg2 (((cfg0.win 2).blk t).view.emb (ix2 e j)) = _
  refine congrArg (V c main_arg2) ?_
  funext a; apply Fin.ext
  match a with
  | ⟨0, _⟩ => show win0_2.index t (0 : Fin 2) * 2048 + 1 * e.val = e.val; omega
  | ⟨1, _⟩ => show win0_2.index t (1 : Fin 2) * 128 + 1 * j.val = j.val; omega

/-- Entry `(e, j)` of weight window 3's block is that entry of the whole matrix, at every point. -/
theorem iblk0_3_apply (c : Dev nD) (t : Fin cfg0.N) (e : Fin 2048) (j : Fin 128) :
    iblk0 V c 3 t (ix2 e j) = V c main_arg3 (ix2 e j) := by
  have hi := idx0 t
  show V c main_arg3 (((cfg0.win 3).blk t).view.emb (ix2 e j)) = _
  refine congrArg (V c main_arg3) ?_
  funext a; apply Fin.ext
  match a with
  | ⟨0, _⟩ => show win0_3.index t (0 : Fin 2) * 2048 + 1 * e.val = e.val; omega
  | ⟨1, _⟩ => show win0_3.index t (1 : Fin 2) * 128 + 1 * j.val = j.val; omega

/-- What point `t` writes back through output window 4 is block `t` of the rows' product with the weight matrix. -/
theorem flushed4_eq (c : Dev nD) (t : Fin cfg0.N) :
    (dat0 V c).flushed 4 t = ((cfg0.win 4).blk t).view.read (Elt Ideal) (Pj (V c main_v0) (V c main_arg1)) := by
  show (cfg0.win 4).cut (grid0.coords t) ((dat0 V c).after 4 t) = _
  rw [after0_4]
  unfold out0_4
  rw [View.canon_unit_zero hz2]
  simp only [View.ld_unit_zero (S := S1024x2048) hz2, View.ld_unit_zero (S := S2048x128) hz2]
  funext j
  obtain ⟨p, q, rfl⟩ : ∃ (p : Fin 1024) (q : Fin 128), j = ix2 p q := ⟨j 0, j 1, eq_ix2 j⟩
  have hi := idx0 t
  refine (Payload.k0_pay2_apply _ _ p q).trans ?_
  have r0 : ((((cfg0.win 4).blk t).view.emb (ix2 p q)) 0 : Fin 32768) = (⟨1024 * t.val + p.val, row_lt t p⟩ : Fin 32768) :=
    Fin.ext (by show win0_4.index t (0 : Fin 2) * 1024 + 1 * p.val = 1024 * t.val + p.val; omega)
  have r1 : ((((cfg0.win 4).blk t).view.emb (ix2 p q)) 1 : Fin 128) = q :=
    Fin.ext (by show win0_4.index t (1 : Fin 2) * 128 + 1 * q.val = q.val; omega)
  show Cert.Attn.proj _ _ p q = Cert.Attn.proj (fun r e => V c main_v0 (ix2 r e)) (fun e h => V c main_arg1 (ix2 e h))
    ((((cfg0.win 4).blk t).view.emb (ix2 p q)) 0 : Fin 32768) ((((cfg0.win 4).blk t).view.emb (ix2 p q)) 1 : Fin 128)
  rw [r0, r1]
  unfold Cert.Attn.proj
  refine Finset.sum_congr rfl fun e _ => ?_
  beta_reduce
  rw [iblk0_0_apply V c t p e, iblk0_1_apply V c t e q]

theorem mem_blk4 (t : Fin cfg0.N) (i : S32768x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v1_0).slice (win0_4.rect t)).set ↔ _
  rw [View.set_slice_whole, Rect.mem_set_unit]
  exact Iff.rfl

theorem cover4 (i : S32768x128.Idx) : ∃ t : Fin cfg0.N, (cfg0.win 4).flush t = true ∧ i ∈ ((cfg0.win 4).blk t).view.set := by
  have hi0 : (i 0).val < 32768 := (i 0).isLt
  have hi1 : (i 1).val < 128 := (i 1).isLt
  have hN : cfg0.N = 32 := N_0
  obtain ⟨t, ht⟩ : ∃ t : Fin cfg0.N, t.val = (i 0).val / 1024 := ⟨⟨(i 0).val / 1024, by omega⟩, rfl⟩
  refine ⟨t, flush0_4 t, ?_⟩
  rw [mem_blk4]
  have hi := idx0 t
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 128 ≤ (i 1).val ∧ (i 1).val < win0_4.index t (1 : Fin 2) * 128 + 128; omega

/-- The whole array after the region. -/
theorem final4 (c : Dev nD) : (dat0 V c).arrAt 4 cfg0.N = Pj (V c main_v0) (V c main_arg1) :=
  (dat0 V c).arrAt_eq_of_cover 4 (Pj (V c main_v0) (V c main_arg1)) (fun t _ => flushed4_eq V c t) cover4

/-- What point `t` writes back through output window 5 is block `t` of the rows' product with the weight matrix. -/
theorem flushed5_eq (c : Dev nD) (t : Fin cfg0.N) :
    (dat0 V c).flushed 5 t = ((cfg0.win 5).blk t).view.read (Elt Ideal) (Pj (V c main_v0) (V c main_arg2)) := by
  show (cfg0.win 5).cut (grid0.coords t) ((dat0 V c).after 5 t) = _
  rw [after0_5]
  unfold out0_5
  rw [View.canon_unit_zero hz2]
  simp only [View.ld_unit_zero (S := S1024x2048) hz2, View.ld_unit_zero (S := S2048x128) hz2]
  funext j
  obtain ⟨p, q, rfl⟩ : ∃ (p : Fin 1024) (q : Fin 128), j = ix2 p q := ⟨j 0, j 1, eq_ix2 j⟩
  have hi := idx0 t
  refine (Payload.k0_pay3_apply _ _ p q).trans ?_
  have r0 : ((((cfg0.win 5).blk t).view.emb (ix2 p q)) 0 : Fin 32768) = (⟨1024 * t.val + p.val, row_lt t p⟩ : Fin 32768) :=
    Fin.ext (by show win0_5.index t (0 : Fin 2) * 1024 + 1 * p.val = 1024 * t.val + p.val; omega)
  have r1 : ((((cfg0.win 5).blk t).view.emb (ix2 p q)) 1 : Fin 128) = q :=
    Fin.ext (by show win0_5.index t (1 : Fin 2) * 128 + 1 * q.val = q.val; omega)
  show Cert.Attn.proj _ _ p q = Cert.Attn.proj (fun r e => V c main_v0 (ix2 r e)) (fun e h => V c main_arg2 (ix2 e h))
    ((((cfg0.win 5).blk t).view.emb (ix2 p q)) 0 : Fin 32768) ((((cfg0.win 5).blk t).view.emb (ix2 p q)) 1 : Fin 128)
  rw [r0, r1]
  unfold Cert.Attn.proj
  refine Finset.sum_congr rfl fun e _ => ?_
  beta_reduce
  rw [iblk0_0_apply V c t p e, iblk0_2_apply V c t e q]

theorem mem_blk5 (t : Fin cfg0.N) (i : S32768x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v1_1).slice (win0_5.rect t)).set ↔ _
  rw [View.set_slice_whole, Rect.mem_set_unit]
  exact Iff.rfl

theorem cover5 (i : S32768x128.Idx) : ∃ t : Fin cfg0.N, (cfg0.win 5).flush t = true ∧ i ∈ ((cfg0.win 5).blk t).view.set := by
  have hi0 : (i 0).val < 32768 := (i 0).isLt
  have hi1 : (i 1).val < 128 := (i 1).isLt
  have hN : cfg0.N = 32 := N_0
  obtain ⟨t, ht⟩ : ∃ t : Fin cfg0.N, t.val = (i 0).val / 1024 := ⟨⟨(i 0).val / 1024, by omega⟩, rfl⟩
  refine ⟨t, flush0_5 t, ?_⟩
  rw [mem_blk5]
  have hi := idx0 t
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 128 ≤ (i 1).val ∧ (i 1).val < win0_5.index t (1 : Fin 2) * 128 + 128; omega

/-- The whole array after the region. -/
theorem final5 (c : Dev nD) : (dat0 V c).arrAt 5 cfg0.N = Pj (V c main_v0) (V c main_arg2) :=
  (dat0 V c).arrAt_eq_of_cover 5 (Pj (V c main_v0) (V c main_arg2)) (fun t _ => flushed5_eq V c t) cover5

/-- What point `t` writes back through output window 6 is block `t` of the rows' product with the weight matrix. -/
theorem flushed6_eq (c : Dev nD) (t : Fin cfg0.N) :
    (dat0 V c).flushed 6 t = ((cfg0.win 6).blk t).view.read (Elt Ideal) (Pj (V c main_v0) (V c main_arg3)) := by
  show (cfg0.win 6).cut (grid0.coords t) ((dat0 V c).after 6 t) = _
  rw [after0_6]
  unfold out0_6
  rw [View.canon_unit_zero hz2]
  simp only [View.ld_unit_zero (S := S1024x2048) hz2, View.ld_unit_zero (S := S2048x128) hz2]
  funext j
  obtain ⟨p, q, rfl⟩ : ∃ (p : Fin 1024) (q : Fin 128), j = ix2 p q := ⟨j 0, j 1, eq_ix2 j⟩
  have hi := idx0 t
  refine (Payload.k0_pay4_apply _ _ p q).trans ?_
  have r0 : ((((cfg0.win 6).blk t).view.emb (ix2 p q)) 0 : Fin 32768) = (⟨1024 * t.val + p.val, row_lt t p⟩ : Fin 32768) :=
    Fin.ext (by show win0_6.index t (0 : Fin 2) * 1024 + 1 * p.val = 1024 * t.val + p.val; omega)
  have r1 : ((((cfg0.win 6).blk t).view.emb (ix2 p q)) 1 : Fin 128) = q :=
    Fin.ext (by show win0_6.index t (1 : Fin 2) * 128 + 1 * q.val = q.val; omega)
  show Cert.Attn.proj _ _ p q = Cert.Attn.proj (fun r e => V c main_v0 (ix2 r e)) (fun e h => V c main_arg3 (ix2 e h))
    ((((cfg0.win 6).blk t).view.emb (ix2 p q)) 0 : Fin 32768) ((((cfg0.win 6).blk t).view.emb (ix2 p q)) 1 : Fin 128)
  rw [r0, r1]
  unfold Cert.Attn.proj
  refine Finset.sum_congr rfl fun e _ => ?_
  beta_reduce
  rw [iblk0_0_apply V c t p e, iblk0_3_apply V c t e q]

theorem mem_blk6 (t : Fin cfg0.N) (i : S32768x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v1_2).slice (win0_6.rect t)).set ↔ _
  rw [View.set_slice_whole, Rect.mem_set_unit]
  exact Iff.rfl

theorem cover6 (i : S32768x128.Idx) : ∃ t : Fin cfg0.N, (cfg0.win 6).flush t = true ∧ i ∈ ((cfg0.win 6).blk t).view.set := by
  have hi0 : (i 0).val < 32768 := (i 0).isLt
  have hi1 : (i 1).val < 128 := (i 1).isLt
  have hN : cfg0.N = 32 := N_0
  obtain ⟨t, ht⟩ : ∃ t : Fin cfg0.N, t.val = (i 0).val / 1024 := ⟨⟨(i 0).val / 1024, by omega⟩, rfl⟩
  refine ⟨t, flush0_6 t, ?_⟩
  rw [mem_blk6]
  have hi := idx0 t
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 128 ≤ (i 1).val ∧ (i 1).val < win0_6.index t (1 : Fin 2) * 128 + 128; omega

/-- The whole array after the region. -/
theorem final6 (c : Dev nD) : (dat0 V c).arrAt 6 cfg0.N = Pj (V c main_v0) (V c main_arg3) :=
  (dat0 V c).arrAt_eq_of_cover 6 (Pj (V c main_v0) (V c main_arg3)) (fun t _ => flushed6_eq V c t) cover6

end

end Cert.KernelIdeal.Val

end
-- ==== Proof.R1e.lean ====
/-
  What each case of the attention body leaves, through the body's named arithmetic: the accumulator after a batch's
  first tile is the tile's contribution added to the zero splat; after a later tile, added to what the accumulator held;
  and at the last tile the output block receives the accumulator with a unit axis put in front. Every store and load
  of the body is of a whole buffer, so the last store's value is what the buffer holds and a load reads what it holds.
-/
import proofs.«115408_j3504693313667_1_alg».proof.Proof.R1c
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem sout1_A_eq (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : cond1_0 i) (hc1 : ¬cond1_1 i)
    (x0 : Vec F S1x4096x128 .bf16) (x1 x2 : Vec F S1x256x128 .bf16) :
    sout1_A c i arg2 harg2 arg3 harg3 arg4 harg4 arg5 harg5 arg6 harg6 hc0 hc1 x0 x1 x2 = k1_pay3 x0 x1 x2 (k1_pay2 (F := F)) := by
  unfold sout1_A
  rw [View.read_writes_eq_canon _ _ _ (scover1_A c i arg2 harg2 arg3 harg3 arg4 harg4 arg5 harg5 arg6 harg6 hc0 hc1 x0 x1 x2)]
  unfold kernelRun1_A
  dsimp only
  sl_unfold_run_names
  rw [View.canon_cons_unit_zero hz2]
  rw [View.readCov_unit_zero _ hz2]
  simp only [View.readAt_eq_ld, harg2.read_unread, harg3.read_unread, harg4.read_unread, View.ld_unit_zero (S := S1x4096x128) hz3, View.ld_unit_zero (S := S1x256x128) hz3, View.ld_unit_zero (S := S4096x128) hz2]

theorem sout1_B_eq (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : ¬cond1_1 i)
    (x0 : Vec F S1x4096x128 .bf16) (x1 x2 : Vec F S1x256x128 .bf16) (xs : Vec F S4096x128 .f32) :
    sout1_B c i arg2 harg2 arg3 harg3 arg4 harg4 arg5 harg5 arg6 harg6 hc0 hc1 x0 x1 x2 xs = k1_pay3 x0 x1 x2 xs := by
  unfold sout1_B
  rw [View.read_writes_eq_canon _ _ _ (scover1_B c i arg2 harg2 arg3 harg3 arg4 harg4 arg5 harg5 arg6 harg6 hc0 hc1 x0 x1 x2 xs)]
  unfold kernelRun1_B
  dsimp only
  (try sl_unfold_run_names)
  rw [View.canon_cons_unit_zero hz2]
  simp only [View.readAt_eq_ld, harg2.read_unread, harg3.read_unread, harg4.read_unread, harg6.read_unread, View.ld_unit_zero (S := S1x4096x128) hz3, View.ld_unit_zero (S := S1x256x128) hz3, View.ld_unit_zero (S := S4096x128) hz2]

theorem sout1_C_eq (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : cond1_1 i)
    (x0 : Vec F S1x4096x128 .bf16) (x1 x2 : Vec F S1x256x128 .bf16) (xs : Vec F S4096x128 .f32) :
    sout1_C c i arg2 harg2 arg3 harg3 arg4 harg4 arg5 harg5 arg6 harg6 hc0 hc1 x0 x1 x2 xs = k1_pay3 x0 x1 x2 xs := by
  unfold sout1_C
  rw [View.read_writes_eq_canon _ _ _ (scover1_C c i arg2 harg2 arg3 harg3 arg4 harg4 arg5 harg5 arg6 harg6 hc0 hc1 x0 x1 x2 xs)]
  unfold kernelRun1_C
  dsimp only
  (try sl_unfold_run_names)
  rw [View.canon_cons_unit_zero hz2]
  simp only [View.readAt_eq_ld, harg2.read_unread, harg3.read_unread, harg4.read_unread, harg6.read_unread, View.ld_unit_zero (S := S1x4096x128) hz3, View.ld_unit_zero (S := S1x256x128) hz3, View.ld_unit_zero (S := S4096x128) hz2]

theorem out1_C_3_eq (c : Dev nD) (i : grid1.Coords) (arg2 : Memref sig .tc .vmem S1x4096x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x4096x128 .f32) (harg5 : arg5.IsWhole) (arg6 : Memref sig .tc .vmem S4096x128 .f32) (harg6 : arg6.IsWhole) (hc0 : ¬cond1_0 i) (hc1 : cond1_1 i)
    (x0 : Vec F S1x4096x128 .bf16) (x1 x2 : Vec F S1x256x128 .bf16) (xs : Vec F S4096x128 .f32) :
    out1_C_3 c i arg2 harg2 arg3 harg3 arg4 harg4 arg5 harg5 arg6 harg6 hc0 hc1 x0 x1 x2 xs = k1_pay1 (k1_pay3 x0 x1 x2 xs) := by
  unfold out1_C_3
  rw [View.read_writes_eq_canon _ _ _ (cover1_C_3 c i arg2 harg2 arg3 harg3 arg4 harg4 arg5 harg5 arg6 harg6 hc0 hc1 x0 x1 x2 xs)]
  unfold kernelRun1_C
  dsimp only
  sl_unfold_run_names
  rw [View.canon_cons_unit_zero hz3]
  rw [View.readCov_unit_zero _ hz2]
  simp only [View.readAt_eq_ld, harg2.read_unread, harg3.read_unread, harg4.read_unread, harg6.read_unread, View.ld_unit_zero (S := S1x4096x128) hz3, View.ld_unit_zero (S := S1x256x128) hz3, View.ld_unit_zero (S := S4096x128) hz2]

end Cert.KernelIdeal.Hand

end
-- ==== Proof.LibSumRegroup.lean ====
/-
  Regrouping a finite sum over a range of naturals.

  A sum over `Fin (a * b)` is a double sum: every index below `a * b` is `p * b + q` for exactly one `p < a` and
  `q < b` (division with remainder by `b`), so summing block by block, `b` consecutive indices to a block, visits
  every index once. Twice over, a sum over `Fin (a * b * c)` is a triple sum over the indices `(p * b + q) * c + r`.
  This is how a column of `500000` rows is summed tile by tile: `2000` rows to a tile, `125` tiles to a core, `2` cores.

  A sum over `Fin (a + b + c + d)` is the sum of four sums, one over each consecutive part. This is how a product
  against a matrix whose columns are four blocks side by side is the sum of four partial products.

  All statements are for an arbitrary commutative additive monoid.
-/
import Mathlib.Algebra.BigOperators.Fin
import Mathlib.Data.Fintype.BigOperators
import Mathlib.Logic.Equiv.Fin.Basic

namespace Cert.SumRegroup

variable {M : Type*} [AddCommMonoid M]

/-! ## Products of ranges: block by block -/

/-- The index `p * b + q` of the `q`-th entry of the `p`-th block of length `b` lies below `a * b`. -/
theorem mul_add_lt {a b : ℕ} (p : Fin a) (q : Fin b) : p.val * b + q.val < a * b :=
  calc p.val * b + q.val < p.val * b + b := Nat.add_lt_add_left q.isLt _
    _ = (p.val + 1) * b := (Nat.succ_mul _ _).symm
    _ ≤ a * b := Nat.mul_le_mul_right b p.isLt

/-- A sum over `Fin (a * b)` taken block by block: `a` blocks of `b` consecutive indices. -/
theorem sum_fin_mul (a b : ℕ) (f : Fin (a * b) → M) :
    ∑ i, f i = ∑ p : Fin a, ∑ q : Fin b, f ⟨p.val * b + q.val, mul_add_lt p q⟩ := by
  rw [← (finProdFinEquiv (m := a) (n := b)).sum_comp f, Fintype.sum_prod_type]
  refine Finset.sum_congr rfl fun p _ => Finset.sum_congr rfl fun q _ => congrArg f (Fin.ext ?_)
  show q.val + b * p.val = p.val * b + q.val
  rw [Nat.add_comm, Nat.mul_comm]

/-- The index `(p * b + q) * c + r` lies below `a * b * c`. -/
theorem mul_add_mul_add_lt {a b c : ℕ} (p : Fin a) (q : Fin b) (r : Fin c) :
    (p.val * b + q.val) * c + r.val < a * b * c :=
  mul_add_lt (⟨p.val * b + q.val, mul_add_lt p q⟩ : Fin (a * b)) r

/-- A sum over `Fin (a * b * c)` taken in `a` groups of `b` blocks of `c` consecutive indices. -/
theorem sum_fin_mul_mul (a b c : ℕ) (f : Fin (a * b * c) → M) :
    ∑ i, f i = ∑ p : Fin a, ∑ q : Fin b, ∑ r : Fin c,
      f ⟨(p.val * b + q.val) * c + r.val, mul_add_mul_add_lt p q r⟩ := by
  rw [sum_fin_mul (a * b) c f,
    sum_fin_mul a b fun t : Fin (a * b) => ∑ r : Fin c, f ⟨t.val * c + r.val, mul_add_lt t r⟩]

/-- A column of `500000` rows summed tile by tile: two halves of `125` tiles of `2000` rows; row
    `(cc * 125 + j) * 2000 + r` is row `r` of tile `j` of half `cc`. -/
theorem sum_rows_by_tile (f : Fin 500000 → M) :
    ∑ e, f e = ∑ cc : Fin 2, ∑ j : Fin 125, ∑ r : Fin 2000,
      f ⟨(cc.val * 125 + j.val) * 2000 + r.val, mul_add_mul_add_lt (a := 2) cc j r⟩ :=
  sum_fin_mul_mul 2 125 2000 f

/-! ## Sums of ranges: part by part -/

/-- A sum over `Fin (a + b + c + d)` is the sum of the sums over its four consecutive parts. -/
theorem sum_fin_add4 (a b c d : ℕ) (g : Fin (a + b + c + d) → M) :
    ∑ i, g i
      = (∑ i : Fin a, g ⟨i.val, by omega⟩) + (∑ i : Fin b, g ⟨a + i.val, by omega⟩)
        + (∑ i : Fin c, g ⟨a + b + i.val, by omega⟩) + (∑ i : Fin d, g ⟨a + b + c + i.val, by omega⟩) := by
  rw [Fin.sum_univ_add, Fin.sum_univ_add, Fin.sum_univ_add]
  rfl

/-- A sum over `384` columns made of four blocks side by side, of widths `128`, `128`, `64`, `64`. -/
theorem sum_cols_by_part (g : Fin 384 → M) :
    ∑ i, g i
      = (∑ i : Fin 128, g ⟨i.val, by omega⟩) + (∑ i : Fin 128, g ⟨128 + i.val, by omega⟩)
        + (∑ i : Fin 64, g ⟨256 + i.val, by omega⟩) + (∑ i : Fin 64, g ⟨320 + i.val, by omega⟩) :=
  sum_fin_add4 128 128 64 64 g

end Cert.SumRegroup
-- ==== Proof.LibTileSum.lean ====
/-
  A sum over an initial segment of the naturals, cut into tiles of equal size.

  If the tiles `0 … n - 1`, each holding the `s` consecutive indices `s t … s t + s - 1`, cover `0 … N - 1`
  (`N ≤ s * n`), then summing a function over `Fin N` is the same as summing it tile by tile, every index of a
  tile that falls past `N` contributing zero. Only commutativity and associativity of the addition are used: the
  values live in any additive commutative monoid, so nothing need be finite and nothing is ever subtracted.

  Also here: a sequence that starts at zero plus the first term and adds one further term at every step is the
  sequence of partial sums.
-/
import Mathlib.Algebra.BigOperators.Fin

namespace Cert.TileSum

open scoped BigOperators

/-- Summing `g` over the first `n` tiles of size `s`, tile by tile, is summing it over `0 … s * n - 1`:
    tile `n` is appended to the first `n` tiles (induction on the number of tiles). -/
theorem sum_tiles_range {M : Type*} [AddCommMonoid M] (g : ℕ → M) (s n : ℕ) :
    ∑ t ∈ Finset.range n, ∑ k : Fin s, g (s * t + k.val) = ∑ i ∈ Finset.range (s * n), g i := by
  induction n with
  | zero => simp
  | succ n ih =>
    rw [Finset.sum_range_succ, ih, Nat.mul_succ, Finset.sum_range_add]
    congr 1
    exact (Finset.sum_range (fun k => g (s * n + k))).symm

/-- A function on `Fin N` continued by zero past `N`. -/
def extendZero {M : Type*} [Zero M] {N : ℕ} (f : Fin N → M) (i : ℕ) : M :=
  if h : i < N then f ⟨i, h⟩ else 0

/-- The sum of the continuation over `0 … m - 1` is the sum of the function, as soon as `N ≤ m`: the added
    terms are zero. -/
theorem sum_extendZero {M : Type*} [AddCommMonoid M] {N : ℕ} (f : Fin N → M) (m : ℕ) (hN : N ≤ m) :
    ∑ i ∈ Finset.range m, extendZero f i = ∑ c : Fin N, f c := by
  rw [← Finset.sum_subset (Finset.range_mono hN) (f := extendZero f)]
  · rw [Finset.sum_range]
    exact Finset.sum_congr rfl fun c _ => dif_pos c.isLt
  · intro i _ hi
    exact dif_neg (by simpa [Finset.mem_range] using hi)

/-- `n` tiles of size `s` that cover `0 … N - 1`: the masked tile-by-tile sum is the sum over `Fin N`. -/
theorem sum_tiles_masked {M : Type*} [AddCommMonoid M] {N : ℕ} (f : Fin N → M) (s n : ℕ) (hN : N ≤ s * n) :
    ∑ t ∈ Finset.range n, ∑ k : Fin s, (if h : s * t + k.val < N then f ⟨s * t + k.val, h⟩ else 0)
      = ∑ c : Fin N, f c :=
  (sum_tiles_range (extendZero f) s n).trans (sum_extendZero f (s * n) hN)

/-- A running total: if `acc 0` is zero plus the first term and every later `acc (n + 1)`, up to index `N - 1`, adds
    term `n + 1` to `acc n`, then `acc n` is the sum of the terms `0 … n` (induction on `n`). -/
theorem acc_eq_sum_range {M : Type*} [AddCommMonoid M] (T : ℕ → M) (N : ℕ) (acc : ℕ → M)
    (h0 : acc 0 = 0 + T 0) (hs : ∀ n, n + 1 < N → acc (n + 1) = acc n + T (n + 1)) :
    ∀ n, n < N → acc n = ∑ t ∈ Finset.range (n + 1), T t := by
  intro n
  induction n with
  | zero => intro _; rw [h0, zero_add, Finset.sum_range_one]
  | succ n ih =>
    intro hn
    rw [hs n hn, ih (Nat.lt_of_succ_lt hn)]
    exact (Finset.sum_range_succ T (n + 1)).symm

end Cert.TileSum
-- ==== Proof.Bridge.lean ====
/-
  The reference's one sum over the 4096 keys is the sum of the 16 tile contributions.

  Two facts, both pure algebra on the extended reals. First, a key's row of scores does not depend on which factor
  of each product is written on the left: `q · k = k · q` term by term, so the row the reference forms (query on
  the left) is the row `keyRow` forms (key on the left), and the softmax weights agree. Second, every key below
  4096 is `256 j + kk` for exactly one tile `j < 16` and one position `kk < 256`, so the sum over all keys is the
  sum over the tiles of the sums over each tile's keys. Addition on the extended reals is commutative and
  associative, so regrouping a finite sum needs nothing to be finite.

  Also here: a running total that adds one tile's contribution at each of 16 steps is the sum of the 16 terms.
-/
import proofs.«115408_j3504693313667_1_alg».proof.Proof.Spec
import proofs.«115408_j3504693313667_1_alg».proof.Proof.LibSumRegroup
import proofs.«115408_j3504693313667_1_alg».proof.Proof.LibTileSum
noncomputable section
namespace Cert.Attn
open Idealize.ShloMosaic

/-- A key's row of scores with the query on the left is its row with the key on the left: each product commutes. -/
private theorem queryLeft_eq_keyRow {T H : ℕ} (q : Fin T → Fin H → EReal) (kr : Fin H → EReal) :
    (fun q' : Fin T => (∑ hh : Fin H, q q' hh * kr hh) * scale) = keyRow q kr := by
  funext q'
  show (∑ hh : Fin H, q q' hh * kr hh) * scale = (∑ hh : Fin H, kr hh * q q' hh) * scale
  exact congrArg (· * scale) (Finset.sum_congr rfl fun hh _ => mul_comm _ _)

/-- A sum over the 4096 keys taken tile by tile: key `256 j + kk` is key `kk` of tile `j`. -/
private theorem sum_keys_by_tile (f : Fin 4096 → EReal) :
    ∑ k : Fin 4096, f k = ∑ j : Fin 16, ∑ kk : Fin 256, f (keyOf j kk) := by
  refine (Cert.SumRegroup.sum_fin_mul 16 256 f).trans ?_
  refine Finset.sum_congr rfl fun j _ => Finset.sum_congr rfl fun kk _ => congrArg f (Fin.ext ?_)
  show j.val * 256 + kk.val = 256 * j.val + kk.val
  omega

/-- The reference's sum over all keys is the sum over the 16 tiles of each tile's contribution. -/
theorem G_eq_sum_tiles (X : Fin 8 → Fin 4096 → Fin 2048 → EReal) (Wq Wk Wv : Fin 2048 → Fin 128 → EReal)
    (b : Fin 8) (qi : Fin 4096) (h : Fin 128) :
    G X Wq Wk Wv b qi h = ∑ j : Fin 16, tileOf X Wq Wk Wv b j qi h := by
  unfold G
  refine (sum_keys_by_tile _).trans ?_
  refine Finset.sum_congr rfl fun j _ => ?_
  unfold tileOf tileTerm
  refine Finset.sum_congr rfl fun kk _ => ?_
  show smax (fun q' : Fin 4096 =>
        (∑ hh : Fin 128, proj (X b) Wq q' hh * proj (X b) Wk (keyOf j kk) hh) * scale) qi
        * proj (X b) Wv (keyOf j kk) h
      = smax (keyRow (proj (X b) Wq) (proj (X b) Wk (keyOf j kk))) qi * proj (X b) Wv (keyOf j kk) h
  rw [queryLeft_eq_keyRow (proj (X b) Wq) (proj (X b) Wk (keyOf j kk))]

/-- A running total that starts at `0 + T 0` and adds `T (n+1)` at each later step is, after step 15, the sum of the 16 terms. -/
theorem acc_eq_sum16 (T : ℕ → EReal) (acc : ℕ → EReal) (h0 : acc 0 = 0 + T 0)
    (hs : ∀ n, n + 1 < 16 → acc (n + 1) = acc n + T (n + 1)) :
    acc 15 = ∑ j : Fin 16, T j.val := by
  rw [Cert.TileSum.acc_eq_sum_range T 16 acc h0 hs 15 (by omega)]
  exact (Fin.sum_univ_eq_sum_range T 16).symm

end Cert.Attn

end
-- ==== Proof.Val1.lean ====
/-
  The attention region's result array, at the ideal values: entry (b, q, h) is the sum over the 16 key tiles of each
  tile's contribution — each key's softmax weight of query q, times the key's value at h.

  The accumulator after a batch's first tile is that tile's contribution added to zero; after each later tile it is
  the tile before's total plus this tile's contribution; so after the sixteenth tile it is the sum of the sixteen. The
  sixteenth tile's body copies it into the output block, which the pipeline writes back as the batch's slab.
-/
import proofs.«115408_j3504693313667_1_alg».proof.Proof.R1d
import proofs.«115408_j3504693313667_1_alg».proof.Proof.R1e
import proofs.«115408_j3504693313667_1_alg».proof.Proof.Payload
import proofs.«115408_j3504693313667_1_alg».proof.Proof.Bridge
import Idealize.ShloMosaic.Lib.Pipeline.Value

set_option maxRecDepth 16384

noncomputable section

namespace Cert.KernelIdeal.Val1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

open Cert.Attn (tileTerm keyOf)

/-- The printed index maps over the grid: point `t` is batch `t / 16`, key tile `t % 16`. -/
theorem idx1 : ∀ t : Fin cfg1.N,
    win1_0.index t (0 : Fin 3) = t.val / 16 ∧ win1_0.index t (1 : Fin 3) = 0 ∧ win1_0.index t (2 : Fin 3) = 0
    ∧ win1_1.index t (0 : Fin 3) = t.val / 16 ∧ win1_1.index t (1 : Fin 3) = t.val % 16 ∧ win1_1.index t (2 : Fin 3) = 0
    ∧ win1_2.index t (0 : Fin 3) = t.val / 16 ∧ win1_2.index t (1 : Fin 3) = t.val % 16 ∧ win1_2.index t (2 : Fin 3) = 0
    ∧ win1_3.index t (0 : Fin 3) = t.val / 16 ∧ win1_3.index t (1 : Fin 3) = 0 ∧ win1_3.index t (2 : Fin 3) = 0 :=
  (by decide +kernel : ∀ t : Fin grid1.N, _)

theorem bt_lt (t : Fin cfg1.N) : t.val / 16 < 8 := by
  have := t.isLt; have hN : cfg1.N = 128 := N_1; omega
theorem kt_lt (t : Fin cfg1.N) : t.val % 16 < 16 := Nat.mod_lt _ (by decide)
/-- The batch and the key tile of a point. -/
abbrev bOf (t : Fin cfg1.N) : Fin 8 := ⟨t.val / 16, bt_lt t⟩
abbrev jOf (t : Fin cfg1.N) : Fin 16 := ⟨t.val % 16, kt_lt t⟩

/-- Tile `j` of batch `b`'s contribution at query `qi`, feature `h`, from the three arrays the region reads. -/
def tileAt (Q K W : S8x4096x128.Idx → EReal) (b : Fin 8) (j : Fin 16) (qi : Fin 4096) (h : Fin 128) : EReal :=
  tileTerm (fun q' hh => Q (ix3 b q' hh)) (fun kk hh => K (ix3 b (keyOf j kk) hh)) (fun kk hh => W (ix3 b (keyOf j kk) hh)) qi h

/-- The result array: the sixteen tiles' contributions summed. -/
def Out (Q K W : S8x4096x128.Idx → EReal) : S8x4096x128.Idx → EReal :=
  fun i => ∑ j : Fin 16, tileAt Q K W (i 0 : Fin 8) j (i 1 : Fin 4096) (i 2 : Fin 128)

section
variable (V : (c : Dev nD) → (b : Ref sig .tc) → Buf (Elt Ideal) ((c : Thread nD τ).loc b))

/-! ## The blocks' entries are the arrays' -/

theorem iblk1_0_apply (c : Dev nD) (t : Fin cfg1.N) (q' : Fin 4096) (hh : Fin 128) :
    (iblk1 V c 0 t (ix3 (0 : Fin 1) q' hh) : EReal) = V c main_v2 (ix3 (bOf t) q' hh) := by
  have hi := idx1 t
  show V c main_v2 (((cfg1.win 0).blk t).view.emb (ix3 (0 : Fin 1) q' hh)) = _
  refine congrArg (V c main_v2) ?_
  funext a; apply Fin.ext
  match a with
  | ⟨0, _⟩ => show win1_0.index t (0 : Fin 3) * 1 + 1 * 0 = t.val / 16; omega
  | ⟨1, _⟩ => show win1_0.index t (1 : Fin 3) * 4096 + 1 * q'.val = q'.val; omega
  | ⟨2, _⟩ => show win1_0.index t (2 : Fin 3) * 128 + 1 * hh.val = hh.val; omega

theorem iblk1_1_apply (c : Dev nD) (t : Fin cfg1.N) (kk : Fin 256) (hh : Fin 128) :
    (iblk1 V c 1 t (ix3 (0 : Fin 1) kk hh) : EReal) = V c main_v3 (ix3 (bOf t) (keyOf (jOf t) kk) hh) := by
  have hi := idx1 t
  show V c main_v3 (((cfg1.win 1).blk t).view.emb (ix3 (0 : Fin 1) kk hh)) = _
  refine congrArg (V c main_v3) ?_
  funext a; apply Fin.ext
  match a with
  | ⟨0, _⟩ => show win1_1.index t (0 : Fin 3) * 1 + 1 * 0 = t.val / 16; omega
  | ⟨1, _⟩ => show win1_1.index t (1 : Fin 3) * 256 + 1 * kk.val = 256 * (t.val % 16) + kk.val; omega
  | ⟨2, _⟩ => show win1_1.index t (2 : Fin 3) * 128 + 1 * hh.val = hh.val; omega

theorem iblk1_2_apply (c : Dev nD) (t : Fin cfg1.N) (kk : Fin 256) (hh : Fin 128) :
    (iblk1 V c 2 t (ix3 (0 : Fin 1) kk hh) : EReal) = V c main_v4 (ix3 (bOf t) (keyOf (jOf t) kk) hh) := by
  have hi := idx1 t
  show V c main_v4 (((cfg1.win 2).blk t).view.emb (ix3 (0 : Fin 1) kk hh)) = _
  refine congrArg (V c main_v4) ?_
  funext a; apply Fin.ext
  match a with
  | ⟨0, _⟩ => show win1_2.index t (0 : Fin 3) * 1 + 1 * 0 = t.val / 16; omega
  | ⟨1, _⟩ => show win1_2.index t (1 : Fin 3) * 256 + 1 * kk.val = 256 * (t.val % 16) + kk.val; omega
  | ⟨2, _⟩ => show win1_2.index t (2 : Fin 3) * 128 + 1 * hh.val = hh.val; omega

/-- The tile term of the blocks at point `t` is tile `t % 16` of batch `t / 16`. -/
theorem tile_blocks (c : Dev nD) (t : Fin cfg1.N) (qi : Fin 4096) (h : Fin 128) :
    tileTerm (fun q' hh => (iblk1 V c 0 t (ix3 (0 : Fin 1) q' hh) : EReal)) (fun kk hh => (iblk1 V c 1 t (ix3 (0 : Fin 1) kk hh) : EReal))
        (fun kk hh => (iblk1 V c 2 t (ix3 (0 : Fin 1) kk hh) : EReal)) qi h
      = tileAt (V c main_v2) (V c main_v3) (V c main_v4) (bOf t) (jOf t) qi h := by
  unfold tileAt
  congr 1
  · funext q' hh; exact iblk1_0_apply V c t q' hh
  · funext kk hh; exact iblk1_1_apply V c t kk hh
  · funext kk hh; exact iblk1_2_apply V c t kk hh

/-! ## The accumulator, point by point -/

theorem acc_first (c : Dev nD) (t : Fin cfg1.N) (h0 : t.val % 16 = 0) (qi : Fin 4096) (h : Fin 128) :
    ((outsAt1 V c t.val t.isLt).2 (ix2 qi h) : EReal) = 0 + tileAt (V c main_v2) (V c main_v3) (V c main_v4) (bOf t) (jOf t) qi h := by
  have h1 : ¬t.val % 16 = 15 := by omega
  rw [outsAt1_A V c t h0 h1]
  dsimp only
  rw [sout1_A_eq]
  refine (Payload.k1_pay3_apply _ _ _ _ qi h).trans ?_
  rw [Payload.k1_pay2_apply, tile_blocks V c t qi h]

theorem acc_next (c : Dev nD) (t : Fin cfg1.N) (h0 : ¬t.val % 16 = 0) (qi : Fin 4096) (h : Fin 128) :
    ((outsAt1 V c t.val t.isLt).2 (ix2 qi h) : EReal)
      = (outsAt1 V c (t.val - 1) (Nat.lt_of_le_of_lt (Nat.sub_le _ _) t.isLt)).2 (ix2 qi h)
        + tileAt (V c main_v2) (V c main_v3) (V c main_v4) (bOf t) (jOf t) qi h := by
  by_cases h1 : t.val % 16 = 15
  · rw [outsAt1_C V c t h0 h1]
    dsimp only
    rw [sout1_C_eq]
    refine (Payload.k1_pay3_apply _ _ _ _ qi h).trans ?_
    rw [tile_blocks V c t qi h]
  · rw [outsAt1_B V c t h0 h1]
    dsimp only
    rw [sout1_B_eq]
    refine (Payload.k1_pay3_apply _ _ _ _ qi h).trans ?_
    rw [tile_blocks V c t qi h]

/-- At a batch's last tile the output block holds the accumulator, a unit axis in front. -/
theorem out3_eq (c : Dev nD) (t : Fin cfg1.N) (h1 : t.val % 16 = 15) :
    (outsAt1 V c t.val t.isLt).1 = k1_pay1 (F := Ideal) ((outsAt1 V c t.val t.isLt).2) := by
  have h0 : ¬t.val % 16 = 0 := by omega
  rw [outsAt1_C V c t h0 h1]
  dsimp only
  rw [out1_C_3_eq, sout1_C_eq]

/-- After a batch's sixteenth tile the accumulator holds the sum of the batch's sixteen tile contributions. -/
theorem acc_total (c : Dev nD) (t : Fin cfg1.N) (h1 : t.val % 16 = 15) (qi : Fin 4096) (h : Fin 128) :
    ((outsAt1 V c t.val t.isLt).2 (ix2 qi h) : EReal) = ∑ j : Fin 16, tileAt (V c main_v2) (V c main_v3) (V c main_v4) (bOf t) j qi h := by
  have hN : cfg1.N = 128 := N_1
  have htl := t.isLt
  -- the batch's points are 16 b + n, n < 16
  let b := t.val / 16
  have hb : t.val = 16 * b + 15 := by omega
  have hlt : ∀ n, n < 16 → 16 * b + n < cfg1.N := fun n hn => by omega
  let acc : ℕ → EReal := fun n => if hn : n < 16 then ((outsAt1 V c (16 * b + n) (hlt n hn)).2 (ix2 qi h) : EReal) else 0
  let T : ℕ → EReal := fun n => if hn : n < 16 then tileAt (V c main_v2) (V c main_v3) (V c main_v4) (bOf t) ⟨n, hn⟩ qi h else 0
  have hbOf : ∀ n (hn : n < 16), bOf ⟨16 * b + n, hlt n hn⟩ = bOf t := fun n hn => Fin.ext (by show (16 * b + n) / 16 = t.val / 16; omega)
  have hjOf : ∀ n (hn : n < 16), jOf ⟨16 * b + n, hlt n hn⟩ = (⟨n, hn⟩ : Fin 16) := fun n hn => Fin.ext (by show (16 * b + n) % 16 = n; omega)
  have key := Cert.Attn.acc_eq_sum16 T acc
    (by
      show (if hn : 0 < 16 then _ else _) = 0 + (if hn : 0 < 16 then _ else _)
      rw [dif_pos (by decide), dif_pos (by decide)]
      have := acc_first V c ⟨16 * b + 0, hlt 0 (by decide)⟩ (by show (16 * b + 0) % 16 = 0; omega) qi h
      rw [hbOf 0 (by decide), hjOf 0 (by decide)] at this
      exact this)
    (fun n hn => by
      show (if hn' : n + 1 < 16 then _ else _) = (if hn' : n < 16 then _ else _) + (if hn' : n + 1 < 16 then _ else _)
      rw [dif_pos hn, dif_pos (by omega : n < 16), dif_pos hn]
      have := acc_next V c ⟨16 * b + (n + 1), hlt (n + 1) hn⟩ (by show ¬(16 * b + (n + 1)) % 16 = 0; omega) qi h
      rw [hbOf (n + 1) hn, hjOf (n + 1) hn] at this
      exact this)
  have e15 : acc 15 = ((outsAt1 V c t.val t.isLt).2 (ix2 qi h) : EReal) := by
    show (if hn : 15 < 16 then _ else _) = _
    rw [dif_pos (by decide)]
    have tr : ∀ (n : ℕ) (hn : n < cfg1.N), n = t.val →
        ((outsAt1 V c n hn).2 (ix2 qi h) : EReal) = (outsAt1 V c t.val t.isLt).2 (ix2 qi h) := by
      intro n hn e; subst e; rfl
    exact tr _ _ hb.symm
  rw [← e15, key]
  refine Finset.sum_congr rfl fun j _ => ?_
  show (if hn : j.val < 16 then _ else _) = _
  rw [dif_pos j.isLt]

/-! ## From the blocks to the array -/

theorem flushed3_eq (c : Dev nD) (t : Fin cfg1.N) (hf : (cfg1.win 3).flush t = true) :
    (dat1 V c).flushed 3 t = ((cfg1.win 3).blk t).view.read (Elt Ideal) (Out (V c main_v2) (V c main_v3) (V c main_v4)) := by
  have h1 : t.val % 16 = 15 := (flush1_3 t).mp hf
  have hi := idx1 t
  show (cfg1.win 3).cut (grid1.coords t) ((dat1 V c).after 3 t) = _
  rw [after1_3, out3_eq V c t h1]
  funext j
  obtain ⟨u, qi, h, rfl⟩ : ∃ (u : Fin 1) (qi : Fin 4096) (h : Fin 128), j = ix3 u qi h := ⟨j 0, j 1, j 2, eq_ix3 j⟩
  obtain rfl : u = 0 := Subsingleton.elim _ _
  refine (Payload.k1_pay1_apply _ qi h).trans ?_
  rw [acc_total V c t h1 qi h]
  have r0 : ((((cfg1.win 3).blk t).view.emb (ix3 (0 : Fin 1) qi h)) 0 : Fin 8) = bOf t :=
    Fin.ext (by show win1_3.index t (0 : Fin 3) * 1 + 1 * 0 = t.val / 16; omega)
  have r1 : ((((cfg1.win 3).blk t).view.emb (ix3 (0 : Fin 1) qi h)) 1 : Fin 4096) = qi :=
    Fin.ext (by show win1_3.index t (1 : Fin 3) * 4096 + 1 * qi.val = qi.val; omega)
  have r2 : ((((cfg1.win 3).blk t).view.emb (ix3 (0 : Fin 1) qi h)) 2 : Fin 128) = h :=
    Fin.ext (by show win1_3.index t (2 : Fin 3) * 128 + 1 * h.val = h.val; omega)
  show _ = ∑ j : Fin 16, tileAt (V c main_v2) (V c main_v3) (V c main_v4)
    ((((cfg1.win 3).blk t).view.emb (ix3 (0 : Fin 1) qi h)) 0 : Fin 8) j
    ((((cfg1.win 3).blk t).view.emb (ix3 (0 : Fin 1) qi h)) 1 : Fin 4096) ((((cfg1.win 3).blk t).view.emb (ix3 (0 : Fin 1) qi h)) 2 : Fin 128)
  rw [r0, r1, r2]

theorem mem_blk3 (t : Fin cfg1.N) (i : S8x4096x128.Idx) :
    i ∈ ((cfg1.win 3).blk t).view.set ↔ ∀ a : Fin 3, win1_3.index t a * S1x4096x128.size a ≤ (i a).val ∧ (i a).val < win1_3.index t a * S1x4096x128.size a + S1x4096x128.size a := by
  show i ∈ ((View.whole main_v5).slice (win1_3.rect t)).set ↔ _
  rw [View.set_slice_whole, Rect.mem_set_unit]
  exact Iff.rfl

theorem cover3 (i : S8x4096x128.Idx) : ∃ t : Fin cfg1.N, (cfg1.win 3).flush t = true ∧ i ∈ ((cfg1.win 3).blk t).view.set := by
  have hi0 : (i 0).val < 8 := (i 0).isLt
  have hi1 : (i 1).val < 4096 := (i 1).isLt
  have hi2 : (i 2).val < 128 := (i 2).isLt
  have hN : cfg1.N = 128 := N_1
  obtain ⟨t, ht⟩ : ∃ t : Fin cfg1.N, t.val = 16 * (i 0).val + 15 := ⟨⟨16 * (i 0).val + 15, by omega⟩, rfl⟩
  refine ⟨t, (flush1_3 t).mpr (by omega), ?_⟩
  rw [mem_blk3]
  have hi := idx1 t
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 4096 ≤ (i 1).val ∧ (i 1).val < win1_3.index t (1 : Fin 3) * 4096 + 4096; omega
  | ⟨2, _⟩ => show win1_3.index t (2 : Fin 3) * 128 ≤ (i 2).val ∧ (i 2).val < win1_3.index t (2 : Fin 3) * 128 + 128; omega

/-- The result array after the region. -/
theorem final3 (c : Dev nD) : (dat1 V c).arrAt 3 cfg1.N = Out (V c main_v2) (V c main_v3) (V c main_v4) :=
  (dat1 V c).arrAt_eq_of_cover 3 (Out (V c main_v2) (V c main_v3) (V c main_v4)) (fun t hf => flushed3_eq V c t hf) cover3

end

end Cert.KernelIdeal.Val1

end
-- ==== Proof.Assemble.lean ====
/-
  The kernel's result, entry by entry, as the specification's function of the argument arrays.

  The input is reshaped to rows; the projection region leaves the rows' products with the three weight matrices; those
  are reshaped back to batches; the attention region leaves, at (b, q, h), the sum over the sixteen key tiles of each
  tile's contribution. Read through the reshapes, the attention region's three inputs at (b, t, h) are the projections of
  row t of batch b, so the result is the sum of the specification's tile terms, which is the reference's one sum.
-/
import proofs.«115408_j3504693313667_1_alg».proof.Proof.Run
import proofs.«115408_j3504693313667_1_alg».proof.Proof.Val0
import proofs.«115408_j3504693313667_1_alg».proof.Proof.Val1
import proofs.«115408_j3504693313667_1_alg».proof.Proof.Bridge
import Idealize.ShloMosaic.Lib.StableHlo.Run
import Idealize.ShloMosaic.Lib.Pipeline.Value

set_option maxRecDepth 16384

noncomputable section

namespace Cert.KernelIdeal.Asm

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

open Cert.Attn (proj tileTerm keyOf tileOf G)

/-! ## The two reshapes, read at an entry -/

theorem row_lt' (b : Fin 8) (t : Fin 4096) : 4096 * b.val + t.val < 32768 := by
  have := b.isLt; have := t.isLt; omega

/-- The input as rows: row `4096 b + t` is row `t` of batch `b`. -/
theorem rows_apply (x : S8x4096x2048.Idx → EReal) (b : Fin 8) (t : Fin 4096) (e : Fin 2048) :
    shapeCast S32768x2048 x shapeCasts_S8x4096x2048_S32768x2048 (ix2 (⟨4096 * b.val + t.val, row_lt' b t⟩ : Fin 32768) e) = x (ix3 b t e) :=
  shapeCast_apply x _ _ _ (by
    rw [Shape.rowMajor_val_three, Shape.rowMajor_val_two]
    show (b.val * 4096 + t.val) * 2048 + e.val = (4096 * b.val + t.val) * 2048 + e.val
    omega)

/-- Rows back to batches: entry `(b, t, h)` is row `4096 b + t`'s entry `h`. -/
theorem batches_apply (y : S32768x128.Idx → EReal) (b : Fin 8) (t : Fin 4096) (h : Fin 128) :
    shapeCast S8x4096x128 y shapeCasts_S32768x128_S8x4096x128 (ix3 b t h) = y (ix2 (⟨4096 * b.val + t.val, row_lt' b t⟩ : Fin 32768) h) :=
  shapeCast_apply y _ _ _ (by
    rw [Shape.rowMajor_val_two, Shape.rowMajor_val_three]
    show (4096 * b.val + t.val) * 128 + h.val = (b.val * 4096 + t.val) * 128 + h.val
    omega)

/-- The arguments as functions of coordinates. -/
def aX (x : S8x4096x2048.Idx → EReal) : Fin 8 → Fin 4096 → Fin 2048 → EReal := fun b t e => x (ix3 b t e)
def aW (w : S2048x128.Idx → EReal) : Fin 2048 → Fin 128 → EReal := fun e h => w (ix2 e h)

/-- Through both reshapes, entry `(b, t, h)` of a projection result is the specification's projection of row `t` of batch `b`. -/
theorem proj_entry (x : S8x4096x2048.Idx → EReal) (w : S2048x128.Idx → EReal) (b : Fin 8) (t : Fin 4096) (h : Fin 128) :
    shapeCast S8x4096x128 (Val.Pj (shapeCast S32768x2048 x shapeCasts_S8x4096x2048_S32768x2048) w) shapeCasts_S32768x128_S8x4096x128 (ix3 b t h)
      = proj (aX x b) (aW w) t h := by
  rw [batches_apply]
  show proj (fun r e => shapeCast S32768x2048 x shapeCasts_S8x4096x2048_S32768x2048 (ix2 r e)) (fun e h => w (ix2 e h))
    (⟨4096 * b.val + t.val, row_lt' b t⟩ : Fin 32768) h = _
  unfold proj aX aW
  refine Finset.sum_congr rfl fun e _ => ?_
  beta_reduce
  rw [rows_apply]

variable (m : (ℓ : Loc nD τ sig) → Buf (Elt Ideal) ℓ)

/-! ## What the host reshapes and the untouched arguments hold -/

theorem U1_v0 (c : Dev nD) : U1 m c main_v0 = shapeCast S32768x2048 (m ((c : Thread nD τ).loc main_arg0)) shapeCasts_S8x4096x2048_S32768x2048 := by
  show StableHlo.after hostOps0 (W0 m c) (Proc.devRef .tc main_v0) = _
  after_results
  rfl

theorem U1_arg1 (c : Dev nD) : U1 m c main_arg1 = m ((c : Thread nD τ).loc main_arg1) := by
  show StableHlo.after hostOps0 (W0 m c) (Proc.devRef .tc main_arg1) = _
  after_results

theorem U1_arg2 (c : Dev nD) : U1 m c main_arg2 = m ((c : Thread nD τ).loc main_arg2) := by
  show StableHlo.after hostOps0 (W0 m c) (Proc.devRef .tc main_arg2) = _
  after_results

theorem U1_arg3 (c : Dev nD) : U1 m c main_arg3 = m ((c : Thread nD τ).loc main_arg3) := by
  show StableHlo.after hostOps0 (W0 m c) (Proc.devRef .tc main_arg3) = _
  after_results

theorem U3_v2 (c : Dev nD) : U3 m c main_v2 = shapeCast S8x4096x128 (W2 m c (Proc.devRef .tc main_v1_0)) shapeCasts_S32768x128_S8x4096x128 := by
  show StableHlo.after hostOps1 (W2 m c) (Proc.devRef .tc main_v2) = _
  after_results
  rfl

theorem U3_v3 (c : Dev nD) : U3 m c main_v3 = shapeCast S8x4096x128 (W2 m c (Proc.devRef .tc main_v1_1)) shapeCasts_S32768x128_S8x4096x128 := by
  show StableHlo.after hostOps1 (W2 m c) (Proc.devRef .tc main_v3) = _
  after_results
  rfl

theorem U3_v4 (c : Dev nD) : U3 m c main_v4 = shapeCast S8x4096x128 (W2 m c (Proc.devRef .tc main_v1_2)) shapeCasts_S32768x128_S8x4096x128 := by
  show StableHlo.after hostOps1 (W2 m c) (Proc.devRef .tc main_v4) = _
  after_results
  rfl

/-- The projection region's three results. -/
theorem W2_q (c : Dev nD) : W2 m c (Proc.devRef .tc main_v1_0) = Val.Pj (U1 m c main_v0) (U1 m c main_arg1) :=
  (W2_arr m c 4).trans (Val.final4 (U1 m) c)
theorem W2_k (c : Dev nD) : W2 m c (Proc.devRef .tc main_v1_1) = Val.Pj (U1 m c main_v0) (U1 m c main_arg2) :=
  (W2_arr m c 5).trans (Val.final5 (U1 m) c)
theorem W2_v (c : Dev nD) : W2 m c (Proc.devRef .tc main_v1_2) = Val.Pj (U1 m c main_v0) (U1 m c main_arg3) :=
  (W2_arr m c 6).trans (Val.final6 (U1 m) c)

/-- The attention region's result. -/
theorem U4_v5 (c : Dev nD) : U4 m c main_v5 = Val1.Out (U3 m c main_v2) (U3 m c main_v3) (U3 m c main_v4) :=
  (W4_arr m c 3).trans (Val1.final3 (U3 m) c)

/-! ## The kernel's result is the specification's function -/

theorem kernel_entry (c : Dev nD) (b : Fin 8) (qi : Fin 4096) (h : Fin 128) :
    (U4 m c main_v5 (ix3 b qi h) : EReal)
      = G (aX (m ((c : Thread nD τ).loc main_arg0))) (aW (m ((c : Thread nD τ).loc main_arg1))) (aW (m ((c : Thread nD τ).loc main_arg2)))
          (aW (m ((c : Thread nD τ).loc main_arg3))) b qi h := by
  rw [U4_v5, U3_v2, U3_v3, U3_v4, W2_q, W2_k, W2_v, U1_v0, U1_arg1, U1_arg2, U1_arg3]
  rw [Cert.Attn.G_eq_sum_tiles]
  show ∑ j : Fin 16, Val1.tileAt _ _ _ b j qi h = _
  refine Finset.sum_congr rfl fun j _ => ?_
  unfold Val1.tileAt tileOf
  congr 1
  · funext q' hh; exact proj_entry _ _ b q' hh
  · funext kk hh; exact proj_entry _ _ b (keyOf j kk) hh
  · funext kk hh; exact proj_entry _ _ b (keyOf j kk) hh

end Cert.KernelIdeal.Asm

end
-- ==== Proof.RefValue.lean ====
import proofs.«115408_j3504693313667_1_alg».proof.Proof.Gen.ReferenceIdeal.Read
import proofs.«115408_j3504693313667_1_alg».proof.Proof.Spec
import Idealize.ShloMosaic.Lib.ValueIdx
import Idealize.ShloMosaic.Lib.Pipeline.Value
import Idealize.ShloMosaic.PureOps.Ideal.Laws
/-! The reference's result, read entry by entry.

  The reference forms three projections of the input rows (query, key and value rows), the scores of every query
  against every key times a fixed scale, a softmax of each key's scores over the QUERIES (the maximum over the queries,
  once more compared with minus infinity, is subtracted; the exponentials are divided by their sum over the queries),
  and the sum over the keys of the softmax weights times the value rows. Each stage is read here at explicit
  coordinates from the stage before it, and the last lemma assembles the entry (b, qi, h) of the result as the
  specification's function `Cert.Attn.G` of the input's and the weights' entries. -/
noncomputable section
namespace Cert.ReferenceIdeal.RefValue
open Idealize.ShloMosaic Idealize.ShloMosaic.ValueIdx Cert.ReferenceIdeal Cert.ReferenceIdeal.Read

section Stages

variable (x : (⟨S8x4096x2048, .f32⟩ : BufTy).Contents (Elt Ideal)) (wq wk wv w : (⟨S2048x128, .f32⟩ : BufTy).Contents (Elt Ideal))

/-! ## The three projections: entry (b, t, hh) is the row (b, t) of the input against column hh of the weights. -/

private theorem v0_at (b : Fin 8) (t : Fin 4096) (hh : Fin 128) :
    val_main_v0 (F := Ideal) x w (ix3 b t hh) = ∑ e : Fin 2048, x (ix3 b t e) * w (ix2 e hh) := by
  rw [val_main_v0_apply]
  refine Finset.sum_congr rfl fun e _ => ?_
  have el : lidx_main_v0 (ix3 b t hh) e = ix3 b t e := funext fun a => Fin.ext (by
    match a with | ⟨0, _⟩ => rfl | ⟨1, _⟩ => rfl | ⟨2, _⟩ => rfl)
  have er : ridx_main_v0 (ix3 b t hh) e = ix2 e hh := funext fun a => Fin.ext (by
    match a with | ⟨0, _⟩ => rfl | ⟨1, _⟩ => rfl)
  rw [el, er]

private theorem v1_at (b : Fin 8) (t : Fin 4096) (hh : Fin 128) :
    val_main_v1 (F := Ideal) x w (ix3 b t hh) = ∑ e : Fin 2048, x (ix3 b t e) * w (ix2 e hh) := by
  rw [val_main_v1_apply]
  refine Finset.sum_congr rfl fun e _ => ?_
  have el : lidx_main_v1 (ix3 b t hh) e = ix3 b t e := funext fun a => Fin.ext (by
    match a with | ⟨0, _⟩ => rfl | ⟨1, _⟩ => rfl | ⟨2, _⟩ => rfl)
  have er : ridx_main_v1 (ix3 b t hh) e = ix2 e hh := funext fun a => Fin.ext (by
    match a with | ⟨0, _⟩ => rfl | ⟨1, _⟩ => rfl)
  rw [el, er]

private theorem v2_at (b : Fin 8) (t : Fin 4096) (hh : Fin 128) :
    val_main_v2 (F := Ideal) x w (ix3 b t hh) = ∑ e : Fin 2048, x (ix3 b t e) * w (ix2 e hh) := by
  rw [val_main_v2_apply]
  refine Finset.sum_congr rfl fun e _ => ?_
  have el : lidx_main_v2 (ix3 b t hh) e = ix3 b t e := funext fun a => Fin.ext (by
    match a with | ⟨0, _⟩ => rfl | ⟨1, _⟩ => rfl | ⟨2, _⟩ => rfl)
  have er : ridx_main_v2 (ix3 b t hh) e = ix2 e hh := funext fun a => Fin.ext (by
    match a with | ⟨0, _⟩ => rfl | ⟨1, _⟩ => rfl)
  rw [el, er]

/-! ## The scores: entry (b, q', k) is the query row q' against the key row k, then times the scale. -/

private theorem v3_at (b : Fin 8) (q' k : Fin 4096) :
    val_main_v3 (F := Ideal) x wq wk (ix3 b q' k)
      = ∑ hh : Fin 128, val_main_v0 (F := Ideal) x wq (ix3 b q' hh) * val_main_v1 (F := Ideal) x wk (ix3 b k hh) := by
  rw [val_main_v3_apply]
  refine Finset.sum_congr rfl fun hh _ => ?_
  have el : lidx_main_v3 (ix3 b q' k) hh = ix3 b q' hh := funext fun a => Fin.ext (by
    match a with | ⟨0, _⟩ => rfl | ⟨1, _⟩ => rfl | ⟨2, _⟩ => rfl)
  have er : ridx_main_v3 (ix3 b q' k) hh = ix3 b k hh := funext fun a => Fin.ext (by
    match a with | ⟨0, _⟩ => rfl | ⟨1, _⟩ => rfl | ⟨2, _⟩ => rfl)
  rw [el, er]

private theorem v5_at (b : Fin 8) (q' k : Fin 4096) :
    val_main_v5 (F := Ideal) x wq wk (ix3 b q' k) = val_main_v3 (F := Ideal) x wq wk (ix3 b q' k) * Cert.Attn.scale := by
  rw [val_main_v5_apply, val_main_v4_apply, val_main_cst_apply, Ideal.mulf_def, Ideal.ofBits_def]
  rfl

/-! ## The maximum over the queries of the scores of key (b, k), started from minus infinity. -/

/-- The reduced index (b, k) with query q' put back on axis 1 is (b, q', k). -/
private theorem lift_at (h : S8x4096x4096.Reduces [1] S8x4096) (b : Fin 8) (k : Fin 4096) (q' : Fin (S8x4096x4096.size 1)) :
    h.lift (ix2 b k) q' = ix3 b (⟨q'.val, q'.isLt⟩ : Fin 4096) k := by
  funext c; apply Fin.ext
  match c with | ⟨0, _⟩ => rfl | ⟨1, _⟩ => rfl | ⟨2, _⟩ => rfl

private theorem v6_at (b : Fin 8) (k : Fin 4096) :
    val_main_v6 (F := Ideal) x wq wk (ix2 b k)
      = (Finset.univ : Finset (Fin 4096)).fold max Cert.Attn.negInf (fun q' => val_main_v5 (F := Ideal) x wq wk (ix3 b q' k)) := by
  have h : S8x4096x4096.Reduces [1] S8x4096 := by decide
  unfold val_main_v6
  rw [Host.reduce_eq_fold_single FloatOps.maximumf _ _ Facts₀.reducesTo_S8x4096x4096_S8x4096_d1 h Facts₀.h_S_]
  have hf : (val_main_v5 (F := Ideal) x wq wk ∘ h.lift (ix2 b k)) = fun q' : Fin 4096 => val_main_v5 (F := Ideal) x wq wk (ix3 b q' k) :=
    funext fun q' => congrArg (val_main_v5 (F := Ideal) x wq wk) (lift_at h b k q')
  exact congrArg (fun f => Finset.fold max Cert.Attn.negInf f (Finset.univ : Finset (Fin 4096))) hf

private theorem v8_at (b : Fin 8) (k : Fin 4096) :
    val_main_v8 (F := Ideal) x wq wk (ix2 b k) = max Cert.Attn.negInf (val_main_v6 (F := Ideal) x wq wk (ix2 b k)) := by
  rw [val_main_v8_apply, val_main_v7_apply, val_main_cst_1_apply, Ideal.maximumf_def, Ideal.ofBits_def]
  rfl

/-- The maximum broadcast back over the queries: entry (b, q', k) is the maximum of key (b, k). -/
private theorem v10_at (b : Fin 8) (q' k : Fin 4096) :
    val_main_v10 (F := Ideal) x wq wk (ix3 b q' k) = val_main_v8 (F := Ideal) x wq wk (ix2 b k) := by
  rw [val_main_v10_apply, val_main_v9_apply]
  exact congrArg (val_main_v8 (F := Ideal) x wq wk) (funext fun a => Fin.ext (by
    match a with | ⟨0, _⟩ => rfl | ⟨1, _⟩ => rfl))

/-! ## The exponentials, their sum over the queries, and the quotient. -/

private theorem v12_at (b : Fin 8) (q' k : Fin 4096) :
    val_main_v12 (F := Ideal) x wq wk (ix3 b q' k)
      = Ideal.exp (val_main_v5 (F := Ideal) x wq wk (ix3 b q' k) - val_main_v8 (F := Ideal) x wq wk (ix2 b k)) := by
  rw [val_main_v12_apply, Ideal.hostUnary_exp_def, val_main_v11_apply, Ideal.subf_def, v10_at]

private theorem v13_at (b : Fin 8) (k : Fin 4096) :
    val_main_v13 (F := Ideal) x wq wk (ix2 b k) = ∑ q' : Fin 4096, val_main_v12 (F := Ideal) x wq wk (ix3 b q' k) := by
  rw [val_main_v13_apply, val_main_cst_2_apply, Ideal.ofBits_def, Ideal.ofBits_zero_f32, zero_add]
  refine Finset.sum_congr rfl fun q' _ => ?_
  exact congrArg (val_main_v12 (F := Ideal) x wq wk) (funext fun a => Fin.ext (by
    match a with | ⟨0, _⟩ => rfl | ⟨1, _⟩ => rfl | ⟨2, _⟩ => rfl))

private theorem v15_at (b : Fin 8) (q' k : Fin 4096) :
    val_main_v15 (F := Ideal) x wq wk (ix3 b q' k) = val_main_v13 (F := Ideal) x wq wk (ix2 b k) := by
  rw [val_main_v15_apply, val_main_v14_apply]
  exact congrArg (val_main_v13 (F := Ideal) x wq wk) (funext fun a => Fin.ext (by
    match a with | ⟨0, _⟩ => rfl | ⟨1, _⟩ => rfl))

private theorem v16_at (b : Fin 8) (q' k : Fin 4096) :
    val_main_v16 (F := Ideal) x wq wk (ix3 b q' k)
      = Ideal.div (val_main_v12 (F := Ideal) x wq wk (ix3 b q' k)) (val_main_v13 (F := Ideal) x wq wk (ix2 b k)) := by
  rw [val_main_v16_apply, Ideal.hostDivf_def, v15_at]

/-! ## The weighted sum of the value rows over the keys. -/

private theorem v17_at (b : Fin 8) (qi : Fin 4096) (h : Fin 128) :
    val_main_v17 (F := Ideal) x wq wk wv (ix3 b qi h)
      = ∑ k : Fin 4096, val_main_v16 (F := Ideal) x wq wk (ix3 b qi k) * val_main_v2 (F := Ideal) x wv (ix3 b k h) := by
  rw [val_main_v17_apply]
  refine Finset.sum_congr rfl fun k _ => ?_
  have el : lidx_main_v17 (ix3 b qi h) k = ix3 b qi k := funext fun a => Fin.ext (by
    match a with | ⟨0, _⟩ => rfl | ⟨1, _⟩ => rfl | ⟨2, _⟩ => rfl)
  have er : ridx_main_v17 (ix3 b qi h) k = ix3 b k h := funext fun a => Fin.ext (by
    match a with | ⟨0, _⟩ => rfl | ⟨1, _⟩ => rfl | ⟨2, _⟩ => rfl)
  rw [el, er]

/-! ## The stages as the specification's functions. -/

/-- The maximum the program subtracts from key (b, k)'s scores is the specification's row maximum of them. -/
private theorem v8_rowMax (b : Fin 8) (k : Fin 4096) :
    val_main_v8 (F := Ideal) x wq wk (ix2 b k)
      = Cert.Attn.rowMax (fun q' : Fin 4096 => val_main_v5 (F := Ideal) x wq wk (ix3 b q' k)) := by
  rw [v8_at, v6_at]
  rfl

/-- The quotient at (b, qi, k) is the softmax, over the queries, of key (b, k)'s scores, at query qi. -/
private theorem v16_smax (b : Fin 8) (qi k : Fin 4096) :
    val_main_v16 (F := Ideal) x wq wk (ix3 b qi k)
      = Cert.Attn.smax (fun q' : Fin 4096 => val_main_v5 (F := Ideal) x wq wk (ix3 b q' k)) qi := by
  rw [v16_at, v13_at, v12_at]
  unfold Cert.Attn.smax
  rw [← v8_rowMax]
  refine congrArg (Ideal.div _) (Finset.sum_congr rfl fun q' _ => ?_)
  rw [v12_at]

/-- The scaled score at (b, q', k) in the specification's words. -/
private theorem v5_spec (b : Fin 8) (q' k : Fin 4096) :
    val_main_v5 (F := Ideal) x wq wk (ix3 b q' k)
      = (∑ hh : Fin 128, Cert.Attn.proj (fun t e => x (ix3 b t e)) (fun e h => wq (ix2 e h)) q' hh
          * Cert.Attn.proj (fun t e => x (ix3 b t e)) (fun e h => wk (ix2 e h)) k hh) * Cert.Attn.scale := by
  rw [v5_at, v3_at]
  refine congrArg (· * Cert.Attn.scale) (Finset.sum_congr rfl fun hh _ => ?_)
  rw [v0_at, v1_at]
  rfl

end Stages

theorem ref_apply (x : (⟨S8x4096x2048, .f32⟩ : BufTy).Contents (Elt Ideal)) (wq wk wv : (⟨S2048x128, .f32⟩ : BufTy).Contents (Elt Ideal))
    (b : Fin 8) (qi : Fin 4096) (h : Fin 128) :
    val_main_v17 (F := Ideal) x wq wk wv (ix3 b qi h)
      = Cert.Attn.G (fun b t e => x (ix3 b t e)) (fun e h => wq (ix2 e h)) (fun e h => wk (ix2 e h)) (fun e h => wv (ix2 e h)) b qi h := by
  unfold Cert.Attn.G
  refine (v17_at x wq wk wv b qi h).trans (Finset.sum_congr rfl fun k _ => ?_)
  have hs : (fun q' : Fin 4096 => val_main_v5 (F := Ideal) x wq wk (ix3 b q' k))
      = fun q' : Fin 4096 => (∑ hh : Fin 128, Cert.Attn.proj (fun t e => x (ix3 b t e)) (fun e h => wq (ix2 e h)) q' hh
          * Cert.Attn.proj (fun t e => x (ix3 b t e)) (fun e h => wk (ix2 e h)) k hh) * Cert.Attn.scale :=
    funext fun q' => v5_spec x wq wk b q' k
  rw [v16_smax, hs, v2_at]
  rfl

end Cert.ReferenceIdeal.RefValue
end
-- ==== Proof.lean ====
/-
  The certificate of a single-head attention kernel against its reference, on the extended reals.

  Both programs project the input rows three times (queries, keys, values), form the scores of every query against
  every key times one fixed factor, take for each KEY the softmax of its scores over the QUERIES, and sum the keys'
  values with those weights. The kernel does it in two calls — the projections, 1024 rows at a time; then, batch by
  batch, sixteen tiles of 256 keys, each tile's contribution added into an accumulator that is zeroed at a batch's
  first tile and written out at its last — with the key on the left in the score products; the reference does it
  with whole-array operations and the query on the left. On the extended reals a change of float format is the identity,
  products commute and finite sums regroup freely, so the two results are one function of the arguments, entry by entry
  (no finiteness of the inputs is used).

  The frames: each program runs to the end without a fault and leaves its arguments as launched — the kernel's two
  calls one after the other over the buffers' contents at each boundary, at any float values (so at the machine words
  and at the extended reals alike); the reference's from its operations' run. The idealized kernel is the kernel's own
  text read at the extended reals: nothing was rewritten, so that claim is trivial.
-/
import proofs.«115408_j3504693313667_1_alg».proof.Defs
import proofs.«115408_j3504693313667_1_alg».proof.Proof.Gen.Kernel
import proofs.«115408_j3504693313667_1_alg».proof.Proof.Gen.KernelIdeal
import proofs.«115408_j3504693313667_1_alg».proof.Proof.Gen.ReferenceIdeal
import proofs.«115408_j3504693313667_1_alg».proof.Proof.Gen.Pre_finite_inputs
import proofs.«115408_j3504693313667_1_alg».proof.Proof.Gen.ReferenceIdeal.Run
import proofs.«115408_j3504693313667_1_alg».proof.Proof.Gen.ReferenceIdeal.Read
import proofs.«115408_j3504693313667_1_alg».proof.Proof.KRun
import proofs.«115408_j3504693313667_1_alg».proof.Proof.Run
import proofs.«115408_j3504693313667_1_alg».proof.Proof.Assemble
import proofs.«115408_j3504693313667_1_alg».proof.Proof.RefValue

noncomputable section

namespace Cert.Proof

open Idealize.ShloMosaic Idealize.ShloMosaic.TcCoe Idealize.SL.Sem Idealize.ShloMosaic.ValueIdx

/-- The kernel at the machine words: it runs and its arguments end as launched. -/
theorem frame_k : Cert.frame_Kernel := fun m ρ _ => Cert.Kernel.Hand.frame m ρ

/-- The same text read at the extended reals. -/
theorem frame_ki : Cert.frame_KernelIdeal := fun m ρ _ => Cert.KernelIdeal.Hand.frame m ρ

/-- The reference: its operations' run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the extended reals the kernel's result array ends at the sum of the sixteen tile contributions, which is the
    reference's one sum over all keys, entry by entry. -/
theorem algebraic : Cert.algebraic_KernelIdeal_ReferenceIdeal := by
  intro m ρ m' ρ' _ hagree
  refine ⟨fun c => Cert.KernelIdeal.Hand.U4 m c Cert.KernelIdeal.main_v5, ?_, ?_⟩
  · exact (θ_run Cert.KernelIdeal.defs _ _).mono (fun r h c =>
      ⟨h c _ (Cert.KernelIdeal.Hand.mem_uc Cert.KernelIdeal.main_v5 (by decide)),
       (h c _ (Cert.KernelIdeal.Hand.mem_uc Cert.KernelIdeal.main_arg0 (by decide))).trans (Cert.KernelIdeal.Hand.W4_main_arg0 m c),
       (h c _ (Cert.KernelIdeal.Hand.mem_uc Cert.KernelIdeal.main_arg1 (by decide))).trans (Cert.KernelIdeal.Hand.W4_main_arg1 m c),
       (h c _ (Cert.KernelIdeal.Hand.mem_uc Cert.KernelIdeal.main_arg2 (by decide))).trans (Cert.KernelIdeal.Hand.W4_main_arg2 m c),
       (h c _ (Cert.KernelIdeal.Hand.mem_uc Cert.KernelIdeal.main_arg3 (by decide))).trans (Cert.KernelIdeal.Hand.W4_main_arg3 m c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq]
    funext i
    obtain ⟨b, qi, hh, rfl⟩ : ∃ (b : Fin 8) (qi : Fin 4096) (hh : Fin 128), i = ix3 b qi hh := ⟨i 0, i 1, i 2, eq_ix3 i⟩
    rw [Cert.ReferenceIdeal.RefValue.ref_apply, (hagree c).1, (hagree c).2.1, (hagree c).2.2.1, (hagree c).2.2.2]
    exact (Cert.KernelIdeal.Asm.kernel_entry m c b qi hh).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
